-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x3703 : Shape := ⟨2, ![10000, 3703]⟩
abbrev S2x160000 : Shape := ⟨2, ![2, 160000]⟩
abbrev S3703x1024 : Shape := ⟨2, ![3703, 1024]⟩
abbrev S1024 : Shape := ⟨1, ![1024]⟩
abbrev S1024x6 : Shape := ⟨2, ![1024, 6]⟩
abbrev S6 : Shape := ⟨1, ![6]⟩
abbrev S_ : Shape := ⟨0, ![]⟩

class Facts : Prop where
  bcast_S_S10000x3703 : S_.BroadcastsInDim S10000x3703 (![] : Fin 0 → Fin S10000x3703.rank)
  reducesTo_S10000x3703_S_d0_1 : S10000x3703.ReducesTo [0, 1] S_
  h_S_ : 0 < S_.numel
  bcast_S_S3703x1024 : S_.BroadcastsInDim S3703x1024 (![] : Fin 0 → Fin S3703x1024.rank)
  reducesTo_S3703x1024_S_d0_1 : S3703x1024.ReducesTo [0, 1] S_
  bcast_S_S1024 : S_.BroadcastsInDim S1024 (![] : Fin 0 → Fin S1024.rank)
  reducesTo_S1024_S_d0 : S1024.ReducesTo [0] S_
  bcast_S_S1024x6 : S_.BroadcastsInDim S1024x6 (![] : Fin 0 → Fin S1024x6.rank)
  reducesTo_S1024x6_S_d0_1 : S1024x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg5 : FVec F S6 .f32) (main_v13 : IVec S_ 1) (main_v16 : IVec S1024x6 1) : IVec S_ 1 :=
  let main_c_5 : IVec S_ 1 := constantI S_ 1 1#1
  let main_v17 : IVec S_ 1 := (fun x v => Host.reduce IntOp.andi x v reducesTo_S1024x6_S_d0_1 h_S_) main_v16 main_c_5
  let main_v18 : IVec S_ 1 := andi main_v13 main_v17
  let main_v19 : FVec F S6 .f32 := Host.absf main_arg5
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  main_v23

def fn {F : FTy → Type} [FloatOps F] (main_arg0 : FVec F S10000x3703 .f32) (main_arg1 : IVec S2x160000 32) (main_arg2 : FVec F S3703x1024 .f32) (main_arg3 : FVec F S1024 .f32) (main_arg4 : FVec F S1024x6 .f32) (main_arg5 : FVec F S6 .f32) : IVec S_ 1 :=
  let main_v0 : FVec F S10000x3703 .f32 := Host.absf main_arg0
  let main_cst : FVec F S_ .f32 := constant S_ .f32 0x7F800000#32
  let main_v1 : FVec F S10000x3703 .f32 := broadcastInDim S10000x3703 ![] bcast_S_S10000x3703 main_cst
  let main_v2 : IVec S10000x3703 1 := cmpf .olt main_v0 main_v1
  let main_c : IVec S_ 1 := constantI S_ 1 1#1
  let main_v3 : IVec S_ 1 := (fun x v => Host.reduce IntOp.andi x v reducesTo_S10000x3703_S_d0_1 h_S_) main_v2 main_c
  let main_v4 : FVec F S3703x1024 .f32 := Host.absf main_arg2
  let main_cst_0 : FVec F S_ .f32 := constant S_ .f32 0x7F800000#32
  let main_v5 : FVec F S3703x1024 .f32 := broadcastInDim S3703x1024 ![] bcast_S_S3703x1024 main_cst_0
  let main_v6 : IVec S3703x1024 1 := cmpf .olt main_v4 main_v5
  let main_c_1 : IVec S_ 1 := constantI S_ 1 1#1
  let main_v7 : IVec S_ 1 := (fun x v => Host.reduce IntOp.andi x v reducesTo_S3703x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x6 .f32 := Host.absf main_arg4
  let main_cst_4 : FVec F S_ .f32 := constant S_ .f32 0x7F800000#32
  let main_v15 : FVec F S1024x6 .f32 := broadcastInDim S1024x6 ![] bcast_S_S1024x6 main_cst_4
  let main_v16 : IVec S1024x6 1 := cmpf .olt main_v14 main_v15
  fn_part1 (F := F) main_arg5 main_v13 main_v16
-- ==== Kernel.lean ====
abbrev S10000x3703 : Shape := ⟨2, ![10000, 3703]⟩
abbrev S2x160000 : Shape := ⟨2, ![2, 160000]⟩
abbrev S3703x1024 : Shape := ⟨2, ![3703, 1024]⟩
abbrev S1024 : Shape := ⟨1, ![1024]⟩
abbrev S1024x6 : Shape := ⟨2, ![1024, 6]⟩
abbrev S6 : Shape := ⟨1, ![6]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10000x1 : Shape := ⟨2, ![10000, 1]⟩
abbrev S10000x1024 : Shape := ⟨2, ![10000, 1024]⟩
abbrev S400x3703 : Shape := ⟨2, ![400, 3703]⟩
abbrev S400x1 : Shape := ⟨2, ![400, 1]⟩
abbrev S400x1024 : Shape := ⟨2, ![400, 1024]⟩
abbrev S170000x1024 : Shape := ⟨2, ![170000, 1024]⟩
abbrev S1x1024 : Shape := ⟨2, ![1, 1024]⟩
abbrev S1024x128 : Shape := ⟨2, ![1024, 128]⟩
abbrev S10000x128 : Shape := ⟨2, ![10000, 128]⟩
abbrev S400x128 : Shape := ⟨2, ![400, 128]⟩
abbrev S10000x6 : Shape := ⟨2, ![10000, 6]⟩
abbrev S170000x6 : Shape := ⟨2, ![170000, 6]⟩
abbrev S1x6 : Shape := ⟨2, ![1, 6]⟩

abbrev nBuf : Space → Nat
  | .hbm => 83
  | .vmem => 14
  | .smem => 0
  | _ => 0

abbrev bufTy : (tb : Table) → Fin (tcTables nBuf tb) → BufTy
  | .hbm, ⟨0, _⟩ => ⟨S10000x3703, .f32⟩
  | .hbm, ⟨1, _⟩ => ⟨S2x160000, .i32⟩
  | .hbm, ⟨2, _⟩ => ⟨S3703x1024, .f32⟩
  | .hbm, ⟨3, _⟩ => ⟨S1024, .f32⟩
  | .hbm, ⟨4, _⟩ => ⟨S1024x6, .f32⟩
  | .hbm, ⟨5, _⟩ => ⟨S6, .f32⟩
  | .hbm, ⟨6, _⟩ => ⟨S10000, .i32⟩
  | .hbm, ⟨7, _⟩ => ⟨S1x160000, .i32⟩
  | .hbm, ⟨8, _⟩ => ⟨S160000, .i32⟩
  | .hbm, ⟨9, _⟩ => ⟨S170000, .i32⟩
  | .hbm, ⟨10, _⟩ => ⟨S1x160000, .i32⟩
  | .hbm, ⟨11, _⟩ => ⟨S160000, .i32⟩
  | .hbm, ⟨12, _⟩ => ⟨S170000, .i32⟩
  | .hbm, ⟨13, _⟩ => ⟨S_, .f32⟩
  | .hbm, ⟨14, _⟩ => ⟨S170000, .f32⟩
  | .hbm, ⟨15, _⟩ => ⟨S_, .f32⟩
  | .hbm, ⟨16, _⟩ => ⟨S10000, .f32⟩
  | .hbm, ⟨17, _⟩ => ⟨S170000x1, .i32⟩
  | .hbm, ⟨18, _⟩ => ⟨S10000, .f32⟩
  | .hbm, ⟨19, _⟩ => ⟨S10000, .f32⟩
  | .hbm, ⟨20, _⟩ => ⟨S10000x1, .f32⟩
  | .hbm, ⟨21, _⟩ => ⟨S3703x1024, .bf16⟩
  | .hbm, ⟨22, _⟩ => ⟨S10000x1024, .f32⟩
  | .hbm, ⟨23, _⟩ => ⟨S_, .i32⟩
  | .hbm, ⟨24, _⟩ => ⟨S170000, .i32⟩
  | .hbm, ⟨25, _⟩ => ⟨S170000, .i1⟩
  | .hbm, ⟨26, _⟩ => ⟨S_, .i32⟩
  | .hbm, ⟨27, _⟩ => ⟨S170000, .i32⟩
  | .hbm, ⟨28, _⟩ => ⟨S170000, .i32⟩
  | .hbm, ⟨29, _⟩ => ⟨S170000, .i32⟩
  | .hbm, ⟨30, _⟩ => ⟨S170000x1, .i32⟩
  | .hbm, ⟨31, _⟩ => ⟨S170000x1024, .f32⟩
  | .hbm, ⟨32, _⟩ => ⟨S_, .f32⟩
  | .hbm, ⟨33, _⟩ => ⟨S10000x1024, .f32⟩
  | .hbm, ⟨34, _⟩ => ⟨S170000x1, .i32⟩
  | .hbm, ⟨35, _⟩ => ⟨S10000x1024, .f32⟩
  | .hbm, ⟨36, _⟩ => ⟨S10000x1024, .f32⟩
  | .hbm, ⟨37, _⟩ => ⟨S10000x1024, .f32⟩
  | .hbm, ⟨38, _⟩ => ⟨S1x1024, .f32⟩
  | .hbm, ⟨39, _⟩ => ⟨S10000x1024, .f32⟩
  | .hbm, ⟨40, _⟩ => ⟨S10000x1024, .f32⟩
  | .hbm, ⟨41, _⟩ => ⟨S_, .f32⟩
  | .hbm, ⟨42, _⟩ => ⟨S10000x1024, .f32⟩
  | .hbm, ⟨43, _⟩ => ⟨S10000x1024, .f32⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x128, .bf16⟩
  | .hbm, ⟨48, _⟩ => ⟨S10000x128, .f32⟩
  | .hbm, ⟨49, _⟩ => ⟨S10000x6, .f32⟩
  | .hbm, ⟨50, _⟩ => ⟨S_, .i32⟩
  | .hbm, ⟨51, _⟩ => ⟨S170000, .i32⟩
  | .hbm, ⟨52, _⟩ => ⟨S170000, .i1⟩
  | .hbm, ⟨53, _⟩ => ⟨S_, .i32⟩
  | .hbm, ⟨54, _⟩ => ⟨S170000, .i32⟩
  | .hbm, ⟨55, _⟩ => ⟨S170000, .i32⟩
  | .hbm, ⟨56, _⟩ => ⟨S170000, .i32⟩
  | .hbm, ⟨57, _⟩ => ⟨S170000x1, .i32⟩
  | .hbm, ⟨58, _⟩ => ⟨S170000x6, .f32⟩
  | .hbm, ⟨59, _⟩ => ⟨S_, .f32⟩
  | .hbm, ⟨60, _⟩ => ⟨S10000x6, .f32⟩
  | .hbm, ⟨61, _⟩ => ⟨S170000x1, .i32⟩
  | .hbm, ⟨62, _⟩ => ⟨S10000x6, .f32⟩
  | .hbm, ⟨63, _⟩ => ⟨S10000x6, .f32⟩
  | .hbm, ⟨64, _⟩ => ⟨S10000x6, .f32⟩
  | .hbm, ⟨65, _⟩ => ⟨S1x6, .f32⟩
  | .hbm, ⟨66, _⟩ => ⟨S10000x6, .f32⟩
  | .hbm, ⟨67, _⟩ => ⟨S10000x6, .f32⟩
  | .hbm, ⟨68, _⟩ => ⟨S_, .f32⟩
  | .hbm, ⟨69, _⟩ => ⟨S10000, .f32⟩
  | .hbm, ⟨70, _⟩ => ⟨S_, .f32⟩
  | .hbm, ⟨71, _⟩ => ⟨S10000, .f32⟩
  | .hbm, ⟨72, _⟩ => ⟨S10000, .f32⟩
  | .hbm, ⟨73, _⟩ => ⟨S10000x1, .f32⟩
  | .hbm, ⟨74, _⟩ => ⟨S10000x6, .f32⟩
  | .hbm, ⟨75, _⟩ => ⟨S10000x6, .f32⟩
  | .hbm, ⟨76, _⟩ => ⟨S10000x6, .f32⟩
  | .hbm, ⟨77, _⟩ => ⟨S_, .f32⟩
  | .hbm, ⟨78, _⟩ => ⟨S10000, .f32⟩
  | .hbm, ⟨79, _⟩ => ⟨S10000x1, .f32⟩
  | .hbm, ⟨80, _⟩ => ⟨S10000x1, .f32⟩
  | .hbm, ⟨81, _⟩ => ⟨S10000x6, .f32⟩
  | .hbm, ⟨82, _⟩ => ⟨S10000x6, .f32⟩
  | .local _ .vmem, ⟨0, _⟩ => ⟨S400x3703, .f32⟩
  | .local _ .vmem, ⟨1, _⟩ => ⟨S400x3703, .f32⟩
  | .local _ .vmem, ⟨2, _⟩ => ⟨S3703x1024, .bf16⟩
  | .local _ .vmem, ⟨3, _⟩ => ⟨S400x1, .f32⟩
  | .local _ .vmem, ⟨4, _⟩ => ⟨S400x1, .f32⟩
  | .local _ .vmem, ⟨5, _⟩ => ⟨S400x1024, .f32⟩
  | .local _ .vmem, ⟨6, _⟩ => ⟨S400x1024, .f32⟩
  | .local _ .vmem, ⟨7, _⟩ => ⟨S400x1024, .f32⟩
  | .local _ .vmem, ⟨8, _⟩ => ⟨S400x1024, .f32⟩
  | .local _ .vmem, ⟨9, _⟩ => ⟨S1024x128, .bf16⟩
  | .local _ .vmem, ⟨10, _⟩ => ⟨S400x1, .f32⟩
  | .local _ .vmem, ⟨11, _⟩ => ⟨S400x1, .f32⟩
  | .local _ .vmem, ⟨12, _⟩ => ⟨S400x128, .f32⟩
  | .local _ .vmem, ⟨13, _⟩ => ⟨S400x128, .f32⟩
  | _, _ => ⟨S10000x3703, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩
abbrev main_c_3 : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call2_cst : Ref sig .tc := ⟨.hbm, 68, rfl⟩
abbrev main_call2_v0 : Ref sig .tc := ⟨.hbm, 69, rfl⟩
abbrev main_call2_cst_0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_cst_1 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_v50 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x3703 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3703x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S10000_S10000x1_0 : S10000.BroadcastsInDim S10000x1 (![0] : Fin 1 → Fin S10000x1.rank)
  bitsLt_bf16_f32 : FTy.bits .bf16 < FTy.bits .f32
  inb_S400x3703_S400x3703_0_0 : ∀ a, (![0, 0] : Fin 2 → Nat) a + S400x3703.size a ≤ S400x3703.size a
  h_S400x3703 : 0 < S400x3703.numel
  inb_S3703x1024_S3703x1024_0_0 : ∀ a, (![0, 0] : Fin 2 → Nat) a + S3703x1024.size a ≤ S3703x1024.size a
  h_S3703x1024 : 0 < S3703x1024.numel
  shapeCasts_S3703x1024_S3703x1024 : S3703x1024.ShapeCasts S3703x1024
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x1024 : S400x1.Broadcasts S400x1024
  inb_S400x1024_S400x1024_0_0 : ∀ a, (![0, 0] : Fin 2 → Nat) a + S400x1024.size a ≤ S400x1024.size a
  h_S400x1024 : 0 < S400x1024.numel
  bcast_S_S10000x1024 : S_.BroadcastsInDim S10000x1024 (![] : Fin 0 → Fin S10000x1024.rank)
  bcast_S10000x1_S10000x1024_0_1 : S10000x1.BroadcastsInDim S10000x1024 (![0, 1] : Fin 2 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  pads_S1024x6_S1024x128_000_01220 : S1024x6.Pads (![0, 0] : Fin 2 → Nat) ![0, 122] ![0, 0] S1024x128
  h_S_ : 0 < S_.numel
  shapeCasts_S400x1024_S400x1024 : S400x1024.ShapeCasts S400x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S400x1_S400x128 : S400x1.Broadcasts S400x128
  inb_S400x128_S400x128_0_0 : ∀ a, (![0, 0] : Fin 2 → Nat) a + S400x128.size a ≤ S400x128.size a
  h_S400x128 : 0 < S400x128.numel
  slices_S10000x128_S10000x6_0_0 : S10000x128.Slices ![0, 0] S10000x6
  bcast_S_S10000x6 : S_.BroadcastsInDim S10000x6 (![] : Fin 0 → Fin S10000x6.rank)
  bcast_S10000x1_S10000x6_0_1 : S10000x1.BroadcastsInDim S10000x6 (![0, 1] : Fin 2 → Fin S10000x6.rank)
  bcast_S6_S1x6_1 : S6.BroadcastsInDim S1x6 (![1] : Fin 1 → Fin S1x6.rank)
  bcast_S1x6_S10000x6_0_1 : S1x6.BroadcastsInDim S10000x6 (![0, 1] : Fin 2 → Fin S10000x6.rank)
  reducesTo_S10000x6_S10000_d1 : S10000x6.ReducesTo [1] S10000
  scatter_S10000_S170000x1_S170000_n_0_0_1_wf : ScatterDims.WF S10000 S170000x1 S170000 [] [0] [0] 1
  dot_S400x3703_S3703x1024_S400x1024_1_0_0_1_n_n_wf : DotDims.WF S400x3703 S3703x1024 S400x1024 [1] [0] [0] [1] [] []
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S400x1024_S1024x128_S400x128_1_0_0_1_n_n_wf : DotDims.WF S400x1024 S1024x128 S400x128 [1] [0] [0] [1] [] []
  gather_S10000x6_S170000x1_S170000x6_1_0_n_n_0_1_16_wf : GatherDims.WF S10000x6 S170000x1 S170000x6 [1] [0] [] [0] [] 1 ![1, 6]
  scatter_S10000x6_S170000x1_S170000x6_1_0_0_1_wf : ScatterDims.WF S10000x6 S170000x1 S170000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x3703.size a ≤ S10000x3703.size a
  hwx0_0 : ∀ i : grid0.Coords, EltTy.bits .f32 = 32 ∨ (Rect.block (s := S10000x3703) S400x3703.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3703x1024.size a ≤ S3703x1024.size a
  hwx0_1 : ∀ i : grid0.Coords, EltTy.bits .bf16 = 32 ∨ (Rect.block (s := S3703x1024) S3703x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S10000x1.size a
  hwx0_2 : ∀ i : grid0.Coords, EltTy.bits .f32 = 32 ∨ (Rect.block (s := S10000x1) S400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1024.size a ≤ S10000x1024.size a
  hwx0_3 : ∀ i : grid0.Coords, EltTy.bits .f32 = 32 ∨ (Rect.block (s := S10000x1024) S400x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x1024.size a ≤ S10000x1024.size a
  hwx1_0 : ∀ i : grid1.Coords, EltTy.bits .f32 = 32 ∨ (Rect.block (s := S10000x1024) S400x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .bf16 = 32 ∨ (Rect.block (s := S1024x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S10000x1.size a
  hwx1_2 : ∀ i : grid1.Coords, EltTy.bits .f32 = 32 ∨ (Rect.block (s := S10000x1) S400x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def dot_S400x3703_S3703x1024_S400x1024_1_0_0_1_n_n : DotDims S400x3703 S3703x1024 S400x1024 where
  lhsContracting := [1]
  rhsContracting := [0]
  lhsNonContracting := [0]
  rhsNonContracting := [1]
  lhsBatch := []
  rhsBatch := []
  wf := dot_S400x3703_S3703x1024_S400x1024_1_0_0_1_n_n_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S400x1024_S1024x128_S400x128_1_0_0_1_n_n : DotDims S400x1024 S1024x128 S400x128 where
  lhsContracting := [1]
  rhsContracting := [0]
  lhsNonContracting := [0]
  rhsNonContracting := [1]
  lhsBatch := []
  rhsBatch := []
  wf := dot_S400x1024_S1024x128_S400x128_1_0_0_1_n_n_wf
def gather_S10000x6_S170000x1_S170000x6_1_0_n_n_0_1_16 : GatherDims S10000x6 S170000x1 S170000x6 where
  offsetDims := [1]
  collapsedSliceDims := [0]
  operandBatchingDims := []
  startIndicesBatchingDims := []
  startIndexMap := [0]
  indexVectorDim := 1
  sliceSizes := ![1, 6]
  wf := gather_S10000x6_S170000x1_S170000x6_1_0_n_n_0_1_16_wf
def scatter_S10000x6_S170000x1_S170000x6_1_0_0_1 : ScatterDims S10000x6 S170000x1 S170000x6 where
  updateWindowDims := [1]
  insertedWindowDims := [0]
  scatterDimsToOperandDims := [0]
  indexVectorDim := 1
  wf := scatter_S10000x6_S170000x1_S170000x6_1_0_0_1_wf

abbrev win0_0 : Pipeline.Window sig grid0 :=
  Pipeline.Window.ofSpec (Memref.whole main_arg0) S400x3703.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3703x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S400x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S400x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x3703 : Shape := ⟨2, ![10000, 3703]⟩
abbrev S2x160000 : Shape := ⟨2, ![2, 160000]⟩
abbrev S3703x1024 : Shape := ⟨2, ![3703, 1024]⟩
abbrev S1024 : Shape := ⟨1, ![1024]⟩
abbrev S1024x6 : Shape := ⟨2, ![1024, 6]⟩
abbrev S6 : Shape := ⟨1, ![6]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S10000x1024 : Shape := ⟨2, ![10000, 1024]⟩
abbrev S_ : Shape := ⟨0, ![]⟩
abbrev S170000x1 : Shape := ⟨2, ![170000, 1]⟩
abbrev S170000x1024 : Shape := ⟨2, ![170000, 1024]⟩
abbrev S1x1024 : Shape := ⟨2, ![1, 1024]⟩
abbrev S10000x6 : Shape := ⟨2, ![10000, 6]⟩
abbrev S170000x6 : Shape := ⟨2, ![170000, 6]⟩
abbrev S1x6 : Shape := ⟨2, ![1, 6]⟩
abbrev S10000x1 : Shape := ⟨2, ![10000, 1]⟩

abbrev nBuf : Space → Nat
  | .hbm => 123
  | .vmem => 0
  | .smem => 0
  | _ => 0

abbrev bufTy : (tb : Table) → Fin (tcTables nBuf tb) → BufTy
  | .hbm, ⟨0, _⟩ => ⟨S10000x3703, .f32⟩
  | .hbm, ⟨1, _⟩ => ⟨S2x160000, .i32⟩
  | .hbm, ⟨2, _⟩ => ⟨S3703x1024, .f32⟩
  | .hbm, ⟨3, _⟩ => ⟨S1024, .f32⟩
  | .hbm, ⟨4, _⟩ => ⟨S1024x6, .f32⟩
  | .hbm, ⟨5, _⟩ => ⟨S6, .f32⟩
  | .hbm, ⟨6, _⟩ => ⟨S10000, .i32⟩
  | .hbm, ⟨7, _⟩ => ⟨S1x160000, .i32⟩
  | .hbm, ⟨8, _⟩ => ⟨S160000, .i32⟩
  | .hbm, ⟨9, _⟩ => ⟨S170000, .i32⟩
  | .hbm, ⟨10, _⟩ => ⟨S1x160000, .i32⟩
  | .hbm, ⟨11, _⟩ => ⟨S160000, .i32⟩
  | .hbm, ⟨12, _⟩ => ⟨S170000, .i32⟩
  | .hbm, ⟨13, _⟩ => ⟨S10000x1024, .f32⟩
  | .hbm, ⟨14, _⟩ => ⟨S_, .f32⟩
  | .hbm, ⟨15, _⟩ => ⟨S170000, .f32⟩
  | .hbm, ⟨16, _⟩ => ⟨S_, .f32⟩
  | .hbm, ⟨17, _⟩ => ⟨S10000, .f32⟩
  | .hbm, ⟨18, _⟩ => ⟨S170000x1, .i32⟩
  | .hbm, ⟨19, _⟩ => ⟨S10000, .f32⟩
  | .hbm, ⟨20, _⟩ => ⟨S10000, .f32⟩
  | .hbm, ⟨21, _⟩ => ⟨S_, .i32⟩
  | .hbm, ⟨22, _⟩ => ⟨S170000, .i32⟩
  | .hbm, ⟨23, _⟩ => ⟨S170000, .i1⟩
  | .hbm, ⟨24, _⟩ => ⟨S_, .i32⟩
  | .hbm, ⟨25, _⟩ => ⟨S170000, .i32⟩
  | .hbm, ⟨26, _⟩ => ⟨S170000, .i32⟩
  | .hbm, ⟨27, _⟩ => ⟨S170000, .i32⟩
  | .hbm, ⟨28, _⟩ => ⟨S170000x1, .i32⟩
  | .hbm, ⟨29, _⟩ => ⟨S170000, .f32⟩
  | .hbm, ⟨30, _⟩ => ⟨S_, .i32⟩
  | .hbm, ⟨31, _⟩ => ⟨S170000, .i32⟩
  | .hbm, ⟨32, _⟩ => ⟨S170000, .i1⟩
  | .hbm, ⟨33, _⟩ => ⟨S_, .i32⟩
  | .hbm, ⟨34, _⟩ => ⟨S170000, .i32⟩
  | .hbm, ⟨35, _⟩ => ⟨S170000, .i32⟩
  | .hbm, ⟨36, _⟩ => ⟨S170000, .i32⟩
  | .hbm, ⟨37, _⟩ => ⟨S170000x1, .i32⟩
  | .hbm, ⟨38, _⟩ => ⟨S170000, .f32⟩
  | .hbm, ⟨39, _⟩ => ⟨S170000, .f32⟩
  | .hbm, ⟨40, _⟩ => ⟨S_, .i32⟩
  | .hbm, ⟨41, _⟩ => ⟨S170000, .i32⟩
  | .hbm, ⟨42, _⟩ => ⟨S170000, .i1⟩
  | .hbm, ⟨43, _⟩ => ⟨S_, .i32⟩
  | .hbm, ⟨44, _⟩ => ⟨S170000, .i32⟩
  | .hbm, ⟨45, _⟩ => ⟨S170000, .i32⟩
  | .hbm, ⟨46, _⟩ => ⟨S170000, .i32⟩
  | .hbm, ⟨47, _⟩ => ⟨S170000x1, .i32⟩
  | .hbm, ⟨48, _⟩ => ⟨S170000x1024, .f32⟩
  | .hbm, ⟨49, _⟩ => ⟨S170000x1, .f32⟩
  | .hbm, ⟨50, _⟩ => ⟨S170000x1024, .f32⟩
  | .hbm, ⟨51, _⟩ => ⟨S170000x1024, .f32⟩
  | .hbm, ⟨52, _⟩ => ⟨S_, .f32⟩
  | .hbm, ⟨53, _⟩ => ⟨S10000x1024, .f32⟩
  | .hbm, ⟨54, _⟩ => ⟨S170000x1, .i32⟩
  | .hbm, ⟨55, _⟩ => ⟨S10000x1024, .f32⟩
  | .hbm, ⟨56, _⟩ => ⟨S1x1024, .f32⟩
  | .hbm, ⟨57, _⟩ => ⟨S10000x1024, .f32⟩
  | .hbm, ⟨58, _⟩ => ⟨S10000x1024, .f32⟩
  | .hbm, ⟨59, _⟩ => ⟨S_, .f32⟩
  | .hbm, ⟨60, _⟩ => ⟨S10000x1024, .f32⟩
  | .hbm, ⟨61, _⟩ => ⟨S10000x1024, .f32⟩
  | .hbm, ⟨62, _⟩ => ⟨S10000x6, .f32⟩
  | .hbm, ⟨63, _⟩ => ⟨S_, .f32⟩
  | .hbm, ⟨64, _⟩ => ⟨S170000, .f32⟩
  | .hbm, ⟨65, _⟩ => ⟨S_, .f32⟩
  | .hbm, ⟨66, _⟩ => ⟨S10000, .f32⟩
  | .hbm, ⟨67, _⟩ => ⟨S170000x1, .i32⟩
  | .hbm, ⟨68, _⟩ => ⟨S10000, .f32⟩
  | .hbm, ⟨69, _⟩ => ⟨S10000, .f32⟩
  | .hbm, ⟨70, _⟩ => ⟨S_, .i32⟩
  | .hbm, ⟨71, _⟩ => ⟨S170000, .i32⟩
  | .hbm, ⟨72, _⟩ => ⟨S170000, .i1⟩
  | .hbm, ⟨73, _⟩ => ⟨S_, .i32⟩
  | .hbm, ⟨74, _⟩ => ⟨S170000, .i32⟩
  | .hbm, ⟨75, _⟩ => ⟨S170000, .i32⟩
  | .hbm, ⟨76, _⟩ => ⟨S170000, .i32⟩
  | .hbm, ⟨77, _⟩ => ⟨S170000x1, .i32⟩
  | .hbm, ⟨78, _⟩ => ⟨S170000, .f32⟩
  | .hbm, ⟨79, _⟩ => ⟨S_, .i32⟩
  | .hbm, ⟨80, _⟩ => ⟨S170000, .i32⟩
  | .hbm, ⟨81, _⟩ => ⟨S170000, .i1⟩
  | .hbm, ⟨82, _⟩ => ⟨S_, .i32⟩
  | .hbm, ⟨83, _⟩ => ⟨S170000, .i32⟩
  | .hbm, ⟨84, _⟩ => ⟨S170000, .i32⟩
  | .hbm, ⟨85, _⟩ => ⟨S170000, .i32⟩
  | .hbm, ⟨86, _⟩ => ⟨S170000x1, .i32⟩
  | .hbm, ⟨87, _⟩ => ⟨S170000, .f32⟩
  | .hbm, ⟨88, _⟩ => ⟨S170000, .f32⟩
  | .hbm, ⟨89, _⟩ => ⟨S_, .i32⟩
  | .hbm, ⟨90, _⟩ => ⟨S170000, .i32⟩
  | .hbm, ⟨91, _⟩ => ⟨S170000, .i1⟩
  | .hbm, ⟨92, _⟩ => ⟨S_, .i32⟩
  | .hbm, ⟨93, _⟩ => ⟨S170000, .i32⟩
  | .hbm, ⟨94, _⟩ => ⟨S170000, .i32⟩
  | .hbm, ⟨95, _⟩ => ⟨S170000, .i32⟩
  | .hbm, ⟨96, _⟩ => ⟨S170000x1, .i32⟩
  | .hbm, ⟨97, _⟩ => ⟨S170000x6, .f32⟩
  | .hbm, ⟨98, _⟩ => ⟨S170000x1, .f32⟩
  | .hbm, ⟨99, _⟩ => ⟨S170000x6, .f32⟩
  | .hbm, ⟨100, _⟩ => ⟨S170000x6, .f32⟩
  | .hbm, ⟨101, _⟩ => ⟨S_, .f32⟩
  | .hbm, ⟨102, _⟩ => ⟨S10000x6, .f32⟩
  | .hbm, ⟨103, _⟩ => ⟨S170000x1, .i32⟩
  | .hbm, ⟨104, _⟩ => ⟨S10000x6, .f32⟩
  | .hbm, ⟨105, _⟩ => ⟨S1x6, .f32⟩
  | .hbm, ⟨106, _⟩ => ⟨S10000x6, .f32⟩
  | .hbm, ⟨107, _⟩ => ⟨S10000x6, .f32⟩
  | .hbm, ⟨108, _⟩ => ⟨S_, .f32⟩
  | .hbm, ⟨109, _⟩ => ⟨S10000, .f32⟩
  | .hbm, ⟨110, _⟩ => ⟨S_, .f32⟩
  | .hbm, ⟨111, _⟩ => ⟨S10000, .f32⟩
  | .hbm, ⟨112, _⟩ => ⟨S10000, .f32⟩
  | .hbm, ⟨113, _⟩ => ⟨S10000x1, .f32⟩
  | .hbm, ⟨114, _⟩ => ⟨S10000x6, .f32⟩
  | .hbm, ⟨115, _⟩ => ⟨S10000x6, .f32⟩
  | .hbm, ⟨116, _⟩ => ⟨S10000x6, .f32⟩
  | .hbm, ⟨117, _⟩ => ⟨S_, .f32⟩
  | .hbm, ⟨118, _⟩ => ⟨S10000, .f32⟩
  | .hbm, ⟨119, _⟩ => ⟨S10000x1, .f32⟩
  | .hbm, ⟨120, _⟩ => ⟨S10000x1, .f32⟩
  | .hbm, ⟨121, _⟩ => ⟨S10000x6, .f32⟩
  | .hbm, ⟨122, _⟩ => ⟨S10000x6, .f32⟩
  | _, _ => ⟨S10000x3703, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call1_cst : Ref sig .tc := ⟨.hbm, 108, rfl⟩
abbrev main_call1_v0 : Ref sig .tc := ⟨.hbm, 109, rfl⟩
abbrev main_call1_cst_0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_cst_1 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_v82 : Ref sig .tc := ⟨.hbm, 122, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S170000x1_S170000x6_0_1 : S170000x1.BroadcastsInDim S170000x6 (![0, 1] : Fin 2 → Fin S170000x6.rank)
  bcast_S_S10000x6 : S_.BroadcastsInDim S10000x6 (![] : Fin 0 → Fin S10000x6.rank)
  bcast_S6_S1x6_1 : S6.BroadcastsInDim S1x6 (![1] : Fin 1 → Fin S1x6.rank)
  bcast_S1x6_S10000x6_0_1 : S1x6.BroadcastsInDim S10000x6 (![0, 1] : Fin 2 → Fin S10000x6.rank)
  reducesTo_S10000x6_S10000_d1 : S10000x6.ReducesTo [1] S10000
  h_S_ : 0 < S_.numel
  bcast_S10000_S10000x1_0 : S10000.BroadcastsInDim S10000x1 (![0] : Fin 1 → Fin S10000x1.rank)
  bcast_S10000x1_S10000x6_0_1 : S10000x1.BroadcastsInDim S10000x6 (![0, 1] : Fin 2 → Fin S10000x6.rank)
  dot_S10000x3703_S3703x1024_S10000x1024_1_0_0_1_n_n_wf : DotDims.WF S10000x3703 S3703x1024 S10000x1024 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S10000x1024_S1024x6_S10000x6_1_0_0_1_n_n_wf : DotDims.WF S10000x1024 S1024x6 S10000x6 [1] [0] [0] [1] [] []
  gather_S10000x6_S170000x1_S170000x6_1_0_n_n_0_1_16_wf : GatherDims.WF S10000x6 S170000x1 S170000x6 [1] [0] [] [0] [] 1 ![1, 6]
  scatter_S10000x6_S170000x1_S170000x6_1_0_0_1_wf : ScatterDims.WF S10000x6 S170000x1 S170000x6 [1] [0] [0] 1

variable [Facts₀]

def dot_S10000x3703_S3703x1024_S10000x1024_1_0_0_1_n_n : DotDims S10000x3703 S3703x1024 S10000x1024 where
  lhsContracting := [1]
  rhsContracting := [0]
  lhsNonContracting := [0]
  rhsNonContracting := [1]
  lhsBatch := []
  rhsBatch := []
  wf := dot_S10000x3703_S3703x1024_S10000x1024_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S10000x1024_S1024x6_S10000x6_1_0_0_1_n_n : DotDims S10000x1024 S1024x6 S10000x6 where
  lhsContracting := [1]
  rhsContracting := [0]
  lhsNonContracting := [0]
  rhsNonContracting := [1]
  lhsBatch := []
  rhsBatch := []
  wf := dot_S10000x1024_S1024x6_S10000x6_1_0_0_1_n_n_wf
def gather_S10000x6_S170000x1_S170000x6_1_0_n_n_0_1_16 : GatherDims S10000x6 S170000x1 S170000x6 where
  offsetDims := [1]
  collapsedSliceDims := [0]
  operandBatchingDims := []
  startIndicesBatchingDims := []
  startIndexMap := [0]
  indexVectorDim := 1
  sliceSizes := ![1, 6]
  wf := gather_S10000x6_S170000x1_S170000x6_1_0_n_n_0_1_16_wf
def scatter_S10000x6_S170000x1_S170000x6_1_0_0_1 : ScatterDims S10000x6 S170000x1 S170000x6 where
  updateWindowDims := [1]
  insertedWindowDims := [0]
  scatterDimsToOperandDims := [0]
  indexVectorDim := 1
  wf := scatter_S10000x6_S170000x1_S170000x6_1_0_0_1_wf

class Facts : Prop extends Facts₀ where

variable [Facts]
-- ==== Proof.KernelRun.lean ====
/-
  The idealized kernel's run with its result named.

  @main is a stretch of host operations, the first projection kernel, five stretches of host operations (the first
  aggregation, relu, the padding of the second weight), the second projection kernel, and two more stretches (the second
  aggregation, the log-softmax). The generated frame module folds the buffer contents through these segments — `W1`
  after the first stretch, `W2` after the first kernel (its output array at what the grid's write-backs leave), and so
  on to `W10` at the return — and proves, per segment, that the segment takes the contents at one boundary to the
  contents at the next. Run through the several-regions launch theorem, those segments give every weakly fair
  execution a final memory that holds `W10` at every buffer that outlives the kernels: here that is read at the result
  buffer as well as at the six arguments.
-/
import proofs.«172561_j61083024884001_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents `W10` and the six argument arrays as launched. -/
theorem run : θ_run defs (onTc (τ := τ) (main (F := F))) ⟨m, fun _ => 0, ρ⟩ (fun r => ∀ c : Dev nD,
      r.2.mem ((c.tc : Thread nD τ).loc main_v50) = W10 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v50 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.RunValue

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«172561_j61083024884001_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.KernelBlocks.lean ====
/-
  The two projection kernels' output arrays, each as one function of the arrays the kernel reads.

  Both kernels run a grid of 25 points over blocks of 400 rows. At a point the body loads a [400, K] block of rows, the
  whole [K, N] weight and the [400, 1] block of per-node factors, and stores, whole, the block's product with the weight
  into a zero accumulator, each row multiplied by its node's factor. Point t writes back block t of the output array;
  the 25 blocks tile the 10000 rows, so after the grid the output array is, entry by entry,
      out[i, j] = (Σ_k x[i, k] · w[k, j]) · s[i, 0].
  Stated at ANY contents `V` of the buffers when the kernel is entered, so that the run instantiates it at each
  kernel's own entry.
-/
import proofs.«172561_j61083024884001_2_alg».proof.Proof.Gen.KernelIdeal.Frame
import Idealize.ShloMosaic.Lib.Pipeline.Value
import Idealize.ShloMosaic.Lib.ValueIdx
import Idealize.ShloMosaic.PureOps.Ideal.Laws
import proofs.«172561_j61083024884001_2_alg».proof.Proof.LibMatmulIdx
import proofs.«172561_j61083024884001_2_alg».proof.Proof.LibColumnOps

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! ## Kernel 0: a [400, 3703] block of rows against the whole [3703, 1024] weight, each row of the product times its node's factor -/

/-- What kernel 0's output array holds, as one function of the three arrays it reads: entry (i, j) is the row-i,
    column-j entry of the product, times the factor column at row i. -/
def proj0 (x : S10000x3703.Idx → EReal) (w : S3703x1024.Idx → EReal) (s : S10000x1.Idx → EReal) : S10000x1024.Idx → EReal :=
  fun i => (∑ k : Fin 3703, x (ix2 (n0 := 10000) (n1 := 3703) (i 0) k) * w (ix2 (n0 := 3703) (n1 := 1024) k (i 1)))
    * s (ix2 (n0 := 10000) (n1 := 1) (i 0) (0 : Fin 1))

/-- The body's stored value at entry (p, q) of its block: the sum over k of the row block at (p, k) times the weight at
    (k, q), times the factor block at (p, 0). The casts to the narrower float format are the identity at exact
    arithmetic, and the accumulator is the zero splat. -/
theorem pay0_apply (x0 : FVec Ideal S400x3703 .f32) (x1 : FVec Ideal S3703x1024 .bf16) (x2 : FVec Ideal S400x1 .f32)
    (p : Fin 400) (q : Fin 1024) :
    k0_pay1 (F := Ideal) x0 x1 x2 (ix2 (n0 := 400) (n1 := 1024) p q)
      = (∑ k : Fin 3703, x0 (ix2 (n0 := 400) (n1 := 3703) p k) * x1 (ix2 (n0 := 3703) (n1 := 1024) k q))
        * x2 (ix2 (n0 := 400) (n1 := 1) p (0 : Fin 1)) := by
  unfold k0_pay1
  rw [mulf_apply]
  refine (congrArg₂ (· * ·)
    (LibMatmulIdx.matmul2_apply dot_S400x3703_S3703x1024_S400x1024_1_0_0_1_n_n rfl rfl
      (fun j k => by
        unfold DotDims.lhsIdx
        rw [dif_neg (show ¬(0 : Fin S400x3703.rank) ∈ dot_S400x3703_S3703x1024_S400x1024_1_0_0_1_n_n.lhsBatch by decide),
          dif_pos (show (0 : Fin S400x3703.rank) ∈ dot_S400x3703_S3703x1024_S400x1024_1_0_0_1_n_n.lhsNonContracting by decide)]
        rfl)
      (fun j k => dot_S400x3703_S3703x1024_S400x1024_1_0_0_1_n_n.lhsIdx_val_of_single rfl j k)
      (fun j k => dot_S400x3703_S3703x1024_S400x1024_1_0_0_1_n_n.rhsIdx_val_of_single rfl j k)
      (fun j k => by
        unfold DotDims.rhsIdx
        rw [dif_neg (show ¬(1 : Fin S3703x1024.rank) ∈ dot_S400x3703_S3703x1024_S400x1024_1_0_0_1_n_n.rhsBatch by decide),
          dif_pos (show (1 : Fin S3703x1024.rank) ∈ dot_S400x3703_S3703x1024_S400x1024_1_0_0_1_n_n.rhsNonContracting by decide)]
        rfl)
      none _ _ (ix2 (n0 := 400) (n1 := 1024) p q))
    (LibColumnOps.broadcastTo_col_apply _ broadcasts_S400x1_S400x1024 p q)).trans ?_
  simp only [shapeCast_self]
  rfl

/-- The printed index maps, decided once over the grid's 25 points: the row block and the factor block move with the
    output block along the rows, the weight stays put, and the output's block row stays below 25. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every block row of the output is some grid point's. -/
theorem idx_onto0 : ∀ q0 : Fin 25, ∃ t : Fin cfg0.N, win0_3.index t = ![q0.val, 0] :=
  (by decide +kernel : ∀ q0 : Fin 25, ∃ t : Fin grid0.N, win0_3.index t = ![q0.val, 0])

/-- At grid point t, the blocks the body reads are where the output block's rectangle says: the row block and the factor
    block on the output block's rows, the weight whole. Stated over any three arrays of the kernel's shapes. -/
theorem blocks_at0 (t : Fin cfg0.N) (p : Fin 400) (q : Fin 1024)
    (X : S10000x3703.Idx → EReal) (W : S3703x1024.Idx → EReal) (S : S10000x1.Idx → EReal) :
    (∑ k : Fin 3703, X (((cfg0.win 0).blk t).view.emb (ix2 (n0 := 400) (n1 := 3703) p k))
        * W (((cfg0.win 1).blk t).view.emb (ix2 (n0 := 3703) (n1 := 1024) k q)))
      * S (((cfg0.win 2).blk t).view.emb (ix2 (n0 := 400) (n1 := 1) p (0 : Fin 1)))
    = proj0 X W S (((cfg0.win 3).blk t).view.emb (ix2 (n0 := 400) (n1 := 1024) p q)) := by
  obtain ⟨e0, e1, e2, e3, e4, e5, e6, e7⟩ := idx_facts0 t
  unfold proj0
  have hx : ∀ k : Fin 3703, ((cfg0.win 0).blk t).view.emb (ix2 (n0 := 400) (n1 := 3703) p k)
      = ix2 (n0 := 10000) (n1 := 3703) ((((cfg0.win 3).blk t).view.emb (ix2 (n0 := 400) (n1 := 1024) p q)) 0) k := fun k => by
    funext a; apply Fin.ext
    match a with
    | ⟨0, _⟩ => show win0_0.index t (0 : Fin 2) * 400 + 1 * p.val = win0_3.index t (0 : Fin 2) * 400 + 1 * p.val; omega
    | ⟨1, _⟩ => show win0_0.index t (1 : Fin 2) * 3703 + 1 * k.val = k.val; omega
  have hw : ∀ k : Fin 3703, ((cfg0.win 1).blk t).view.emb (ix2 (n0 := 3703) (n1 := 1024) k q)
      = ix2 (n0 := 3703) (n1 := 1024) k ((((cfg0.win 3).blk t).view.emb (ix2 (n0 := 400) (n1 := 1024) p q)) 1) := fun k => by
    funext a; apply Fin.ext
    match a with
    | ⟨0, _⟩ => show win0_1.index t (0 : Fin 2) * 3703 + 1 * k.val = k.val; omega
    | ⟨1, _⟩ => show win0_1.index t (1 : Fin 2) * 1024 + 1 * q.val = win0_3.index t (1 : Fin 2) * 1024 + 1 * q.val; omega
  have hs : ((cfg0.win 2).blk t).view.emb (ix2 (n0 := 400) (n1 := 1) p (0 : Fin 1))
      = ix2 (n0 := 10000) (n1 := 1) ((((cfg0.win 3).blk t).view.emb (ix2 (n0 := 400) (n1 := 1024) p q)) 0) (0 : Fin 1) := by
    funext a; apply Fin.ext
    match a with
    | ⟨0, _⟩ => show win0_2.index t (0 : Fin 2) * 400 + 1 * p.val = win0_3.index t (0 : Fin 2) * 400 + 1 * p.val; omega
    | ⟨1, _⟩ => show win0_2.index t (1 : Fin 2) * 1 + 1 * 0 = 0; omega
  rw [hs]
  exact congrArg (· * _) (Finset.sum_congr rfl fun k _ => by rw [hx k, hw k])

/-- WHAT GRID POINT t WRITES BACK is block t of `proj0` of the arrays as the kernel finds them. -/
theorem flushed0_eq (t : Fin cfg0.N) :
    (dat0 V c).flushed 3 t = ((cfg0.win 3).blk t).view.read (Elt Ideal)
      (proj0 (V c main_arg0) (V c main_v13) (V c main_v12)) := by
  show (cfg0.win 3).cut (grid0.coords t) ((dat0 V c).after 3 t) = _
  rw [after0_3]
  unfold out0_3
  rw [View.canon_unit_zero hz]
  simp only [View.ld_unit_zero (S := S400x3703) hz, View.ld_unit_zero (S := S3703x1024) hz, View.ld_unit_zero (S := S400x1) hz]
  funext j
  obtain ⟨p, q, rfl⟩ : ∃ (p : Fin 400) (q : Fin 1024), j = ix2 (n0 := 400) (n1 := 1024) p q := ⟨j 0, j 1, eq_ix2 j⟩
  refine (pay0_apply (iblk0 V c 0 t) (iblk0 V c 1 t) (iblk0 V c 2 t) p q).trans ?_
  exact blocks_at0 t p q (V c main_arg0) (V c main_v13) (V c main_v12)

/-- An entry of the output array is in grid point t's block iff each coordinate is in the block's range. -/
theorem mem_blk0 (t : Fin cfg0.N) (i : S10000x1024.Idx) :
    i ∈ ((cfg0.win 3).blk t).view.set ↔ ∀ a : Fin 2, win0_3.index t a * S400x1024.size a ≤ (i a).val
      ∧ (i a).val < win0_3.index t a * S400x1024.size a + S400x1024.size a := by
  show i ∈ ((View.whole main_v14).slice (win0_3.rect t)).set ↔ _
  rw [View.set_slice_whole, Rect.mem_set_unit]
  exact Iff.rfl

/-- The 25 row blocks tile the output array: entry (i, j) is in the block of the point whose block row is i / 400. -/
theorem cover0 (i : S10000x1024.Idx) :
    ∃ t : Fin cfg0.N, (cfg0.win 3).flush t = true ∧ i ∈ ((cfg0.win 3).blk t).view.set := by
  have hi0 : (i 0).val < 10000 := (i 0).isLt
  have hi1 : (i 1).val < 1024 := (i 1).isLt
  obtain ⟨t, ht⟩ := idx_onto0 ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 1024 ≤ (i 1).val ∧ (i 1).val < win0_3.index t (1 : Fin 2) * 1024 + 1024; omega

/-- THE OUTPUT ARRAY of kernel 0 after its grid: `proj0` of the three arrays the kernel reads, as it finds them. -/
theorem final0 : (dat0 V c).arrAt 3 cfg0.N = proj0 (V c main_arg0) (V c main_v13) (V c main_v12) :=
  (dat0 V c).arrAt_eq_of_cover 3 _ (fun t _ => flushed0_eq V c t) (cover0)

/-! ## Kernel 1: a [400, 1024] block of rows against the whole [1024, 128] weight, each row of the product times its node's factor -/

/-- What kernel 1's output array holds, as one function of the three arrays it reads: entry (i, j) is the row-i,
    column-j entry of the product, times the factor column at row i. -/
def proj1 (x : S10000x1024.Idx → EReal) (w : S1024x128.Idx → EReal) (s : S10000x1.Idx → EReal) : S10000x128.Idx → EReal :=
  fun i => (∑ k : Fin 1024, x (ix2 (n0 := 10000) (n1 := 1024) (i 0) k) * w (ix2 (n0 := 1024) (n1 := 128) k (i 1)))
    * s (ix2 (n0 := 10000) (n1 := 1) (i 0) (0 : Fin 1))

/-- The body's stored value at entry (p, q) of its block: the sum over k of the row block at (p, k) times the weight at
    (k, q), times the factor block at (p, 0). The casts to the narrower float format are the identity at exact
    arithmetic, and the accumulator is the zero splat. -/
theorem pay1_apply (x0 : FVec Ideal S400x1024 .f32) (x1 : FVec Ideal S1024x128 .bf16) (x2 : FVec Ideal S400x1 .f32)
    (p : Fin 400) (q : Fin 128) :
    k1_pay1 (F := Ideal) x0 x1 x2 (ix2 (n0 := 400) (n1 := 128) p q)
      = (∑ k : Fin 1024, x0 (ix2 (n0 := 400) (n1 := 1024) p k) * x1 (ix2 (n0 := 1024) (n1 := 128) k q))
        * x2 (ix2 (n0 := 400) (n1 := 1) p (0 : Fin 1)) := by
  unfold k1_pay1
  rw [mulf_apply]
  refine (congrArg₂ (· * ·)
    (LibMatmulIdx.matmul2_apply dot_S400x1024_S1024x128_S400x128_1_0_0_1_n_n rfl rfl
      (fun j k => by
        unfold DotDims.lhsIdx
        rw [dif_neg (show ¬(0 : Fin S400x1024.rank) ∈ dot_S400x1024_S1024x128_S400x128_1_0_0_1_n_n.lhsBatch by decide),
          dif_pos (show (0 : Fin S400x1024.rank) ∈ dot_S400x1024_S1024x128_S400x128_1_0_0_1_n_n.lhsNonContracting by decide)]
        rfl)
      (fun j k => dot_S400x1024_S1024x128_S400x128_1_0_0_1_n_n.lhsIdx_val_of_single rfl j k)
      (fun j k => dot_S400x1024_S1024x128_S400x128_1_0_0_1_n_n.rhsIdx_val_of_single rfl j k)
      (fun j k => by
        unfold DotDims.rhsIdx
        rw [dif_neg (show ¬(1 : Fin S1024x128.rank) ∈ dot_S400x1024_S1024x128_S400x128_1_0_0_1_n_n.rhsBatch by decide),
          dif_pos (show (1 : Fin S1024x128.rank) ∈ dot_S400x1024_S1024x128_S400x128_1_0_0_1_n_n.rhsNonContracting by decide)]
        rfl)
      none _ _ (ix2 (n0 := 400) (n1 := 128) p q))
    (LibColumnOps.broadcastTo_col_apply _ broadcasts_S400x1_S400x128 p q)).trans ?_
  simp only [shapeCast_self]
  rfl

/-- The printed index maps, decided once over the grid's 25 points: the row block and the factor block move with the
    output block along the rows, the weight stays put, and the output's block row stays below 25. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 24 :=
  (by decide +kernel : ∀ t : Fin grid1.N, _)

/-- Every block row of the output is some grid point's. -/
theorem idx_onto1 : ∀ q0 : Fin 25, ∃ t : Fin cfg1.N, win1_3.index t = ![q0.val, 0] :=
  (by decide +kernel : ∀ q0 : Fin 25, ∃ t : Fin grid1.N, win1_3.index t = ![q0.val, 0])

/-- At grid point t, the blocks the body reads are where the output block's rectangle says: the row block and the factor
    block on the output block's rows, the weight whole. Stated over any three arrays of the kernel's shapes. -/
theorem blocks_at1 (t : Fin cfg1.N) (p : Fin 400) (q : Fin 128)
    (X : S10000x1024.Idx → EReal) (W : S1024x128.Idx → EReal) (S : S10000x1.Idx → EReal) :
    (∑ k : Fin 1024, X (((cfg1.win 0).blk t).view.emb (ix2 (n0 := 400) (n1 := 1024) p k))
        * W (((cfg1.win 1).blk t).view.emb (ix2 (n0 := 1024) (n1 := 128) k q)))
      * S (((cfg1.win 2).blk t).view.emb (ix2 (n0 := 400) (n1 := 1) p (0 : Fin 1)))
    = proj1 X W S (((cfg1.win 3).blk t).view.emb (ix2 (n0 := 400) (n1 := 128) p q)) := by
  obtain ⟨e0, e1, e2, e3, e4, e5, e6, e7⟩ := idx_facts1 t
  unfold proj1
  have hx : ∀ k : Fin 1024, ((cfg1.win 0).blk t).view.emb (ix2 (n0 := 400) (n1 := 1024) p k)
      = ix2 (n0 := 10000) (n1 := 1024) ((((cfg1.win 3).blk t).view.emb (ix2 (n0 := 400) (n1 := 128) p q)) 0) k := fun k => by
    funext a; apply Fin.ext
    match a with
    | ⟨0, _⟩ => show win1_0.index t (0 : Fin 2) * 400 + 1 * p.val = win1_3.index t (0 : Fin 2) * 400 + 1 * p.val; omega
    | ⟨1, _⟩ => show win1_0.index t (1 : Fin 2) * 1024 + 1 * k.val = k.val; omega
  have hw : ∀ k : Fin 1024, ((cfg1.win 1).blk t).view.emb (ix2 (n0 := 1024) (n1 := 128) k q)
      = ix2 (n0 := 1024) (n1 := 128) k ((((cfg1.win 3).blk t).view.emb (ix2 (n0 := 400) (n1 := 128) p q)) 1) := fun k => by
    funext a; apply Fin.ext
    match a with
    | ⟨0, _⟩ => show win1_1.index t (0 : Fin 2) * 1024 + 1 * k.val = k.val; omega
    | ⟨1, _⟩ => show win1_1.index t (1 : Fin 2) * 128 + 1 * q.val = win1_3.index t (1 : Fin 2) * 128 + 1 * q.val; omega
  have hs : ((cfg1.win 2).blk t).view.emb (ix2 (n0 := 400) (n1 := 1) p (0 : Fin 1))
      = ix2 (n0 := 10000) (n1 := 1) ((((cfg1.win 3).blk t).view.emb (ix2 (n0 := 400) (n1 := 128) p q)) 0) (0 : Fin 1) := by
    funext a; apply Fin.ext
    match a with
    | ⟨0, _⟩ => show win1_2.index t (0 : Fin 2) * 400 + 1 * p.val = win1_3.index t (0 : Fin 2) * 400 + 1 * p.val; omega
    | ⟨1, _⟩ => show win1_2.index t (1 : Fin 2) * 1 + 1 * 0 = 0; omega
  rw [hs]
  exact congrArg (· * _) (Finset.sum_congr rfl fun k _ => by rw [hx k, hw k])

/-- WHAT GRID POINT t WRITES BACK is block t of `proj1` of the arrays as the kernel finds them. -/
theorem flushed1_eq (t : Fin cfg1.N) :
    (dat1 V c).flushed 3 t = ((cfg1.win 3).blk t).view.read (Elt Ideal)
      (proj1 (V c main_v30) (V c main_v32) (V c main_v12)) := by
  show (cfg1.win 3).cut (grid1.coords t) ((dat1 V c).after 3 t) = _
  rw [after1_3]
  unfold out1_3
  rw [View.canon_unit_zero hz]
  simp only [View.ld_unit_zero (S := S400x1024) hz, View.ld_unit_zero (S := S1024x128) hz, View.ld_unit_zero (S := S400x1) hz]
  funext j
  obtain ⟨p, q, rfl⟩ : ∃ (p : Fin 400) (q : Fin 128), j = ix2 (n0 := 400) (n1 := 128) p q := ⟨j 0, j 1, eq_ix2 j⟩
  refine (pay1_apply (iblk1 V c 0 t) (iblk1 V c 1 t) (iblk1 V c 2 t) p q).trans ?_
  exact blocks_at1 t p q (V c main_v30) (V c main_v32) (V c main_v12)

/-- An entry of the output array is in grid point t's block iff each coordinate is in the block's range. -/
theorem mem_blk1 (t : Fin cfg1.N) (i : S10000x128.Idx) :
    i ∈ ((cfg1.win 3).blk t).view.set ↔ ∀ a : Fin 2, win1_3.index t a * S400x128.size a ≤ (i a).val
      ∧ (i a).val < win1_3.index t a * S400x128.size a + S400x128.size a := by
  show i ∈ ((View.whole main_v33).slice (win1_3.rect t)).set ↔ _
  rw [View.set_slice_whole, Rect.mem_set_unit]
  exact Iff.rfl

/-- The 25 row blocks tile the output array: entry (i, j) is in the block of the point whose block row is i / 400. -/
theorem cover1 (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  obtain ⟨t, ht⟩ := idx_onto1 ⟨(i 0).val / 400, by omega⟩
  have q0 : win1_3.index t (0 : Fin 2) = (i 0).val / 400 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 128 ≤ (i 1).val ∧ (i 1).val < win1_3.index t (1 : Fin 2) * 128 + 128; omega

/-- THE OUTPUT ARRAY of kernel 1 after its grid: `proj1` of the three arrays the kernel reads, as it finds them. -/
theorem final1 : (dat1 V c).arrAt 3 cfg1.N = proj1 (V c main_v30) (V c main_v32) (V c main_v12) :=
  (dat1 V c).arrAt_eq_of_cover 3 _ (fun t _ => flushed1_eq V c t) (cover1)

end Cert.KernelIdeal.Blocks

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.LibSegmentIdx.lean ====
/-
  Gathers and accumulating scatters along the leading axis, read at an index.

  Indexing a table by an integer column, `x[idx]`, and summing update rows into the rows an integer column names
  (a segment sum) are the two halves of message passing on a graph. With the index column of shape [E, 1]:

  * a gather from a vector x : [N], or from a one-column matrix x : [N, 1], reads at position e the entry of x at
    the e-th index, read as a signed integer and clamped into [0, N − 1];
  * an accumulating scatter into a vector [N], or into a one-column matrix [N, 1], lands update e on row i exactly
    when the e-th index, read as a signed integer and NOT clamped, equals i; an index outside [0, N) lands nowhere;
  * hence, at exact arithmetic, row i of the scattered sum is the operand's row i plus the sum over all e of
    "update e if the e-th index equals i, else 0".
-/
import Idealize.ShloMosaic.Lib.ValueIdx
import Idealize.ShloMosaic.PureOps.Ideal.Laws

noncomputable section

open scoped BigOperators

namespace LibSegmentIdx

open Idealize.ShloMosaic Idealize.ShloMosaic.ValueIdx

/-! ## Gathers -/

section Gather
variable {α : Type}

/-- The dimension numbers of `x[idx]` for a vector `x : [N]` and an index column `idx : [E, 1]`, result `[E]`. -/
abbrev takeVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of `x[idx]` is `x` at the `e`-th index, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (takeVecDims N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (takeVecDims N E wf).start j idx 0 + (takeVecDims N E wf).batchCoord j 0 + (takeVecDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeVecDims N E wf).startIndexMap from List.mem_singleton.mpr rfl)]
  have hsi : (takeVecDims N E wf).siIdx j ⟨List.idxOf (0 : Fin 1) (takeVecDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a one-column matrix `x : [N, 1]` and `idx : [E, 1]`, result `[E, 1]`. -/
abbrev takeRowDims (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of `x[idx]` is the row of `x` at the `e`-th index, read signed and clamped into `[0, N − 1]`. -/
theorem gather_row_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (takeRowDims N E wf) x idx j
      = x (ix2 ⟨min (idx (ix2 (j 0) (0 : Fin 1))).toInt.toNat (N - 1), by omega⟩ (0 : Fin 1)) := by
  unfold Host.gather
  congr 1
  funext a
  refine Fin.ext ?_
  match a with
  | ⟨0, _⟩ =>
    show (takeRowDims N E wf).start j idx 0 + (takeRowDims N E wf).batchCoord j 0 + (takeRowDims N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N E wf).startIndexMap from List.mem_singleton.mpr rfl)]
    have hsi : (takeRowDims N E wf).siIdx j ⟨List.idxOf (0 : Fin 2) (takeRowDims N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    have h1 := (takeRowDims N E wf).lt j idx 1
    have : (⟨2, ![N, 1]⟩ : Shape).size 1 = 1 := rfl
    show (takeRowDims N E wf).start j idx 1 + (takeRowDims N E wf).batchCoord j 1 + (takeRowDims N E wf).offCoord j 1 = 0
    omega

end Gather

/-! ## Accumulating scatters -/

section Scatter

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

/-- A column's index set `[n, 1]` is its row coordinate's range. -/
def idxEquivCol {n : Nat} : (⟨2, ![n, 1]⟩ : Shape).Idx ≃ Fin n where
  toFun i := i 0
  invFun e := ix2 e (0 : Fin 1)
  left_inv i := funext fun a => match a with
    | ⟨0, _⟩ => rfl
    | ⟨1, _⟩ => Fin.ext (by have := idx2_lt1 i; show (0 : ℕ) = (i 1).val; omega)
  right_inv _ := rfl

/-- The dimension numbers of a segment sum into a vector `[N]`: updates `[E]`, index column `[E, 1]`. -/
abbrev addVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `i` exactly when the `e`-th index, read signed, is `i`. -/
theorem resultIdx?_vec_iff {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (addVecDims N E wf).resultIdx? j idx = some i ↔ (idx (ix2 (j 0) (0 : Fin 1))).toInt = ((i 0).val : ℤ) := by
  have hi : (i 0).val < N := (i 0).isLt
  have hstart : (addVecDims N E wf).start j idx 0 = (idx (ix2 (j 0) (0 : Fin 1))).toInt := by
    unfold ScatterDims.start
    rw [dif_pos (show (0 : Fin 1) ∈ (addVecDims N E wf).scatterDimsToOperandDims from List.mem_singleton.mpr rfl)]
    have hsi : (addVecDims N E wf).siIdx j ⟨List.idxOf (0 : Fin 1) (addVecDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin : (addVecDims N E wf).window j 0 = 0 := by
    unfold ScatterDims.window
    rw [dif_neg (by simp [ScatterDims.sKept, Shape.kept])]
  unfold ScatterDims.resultIdx?
  split
  · rename_i h
    rw [Option.some_inj]
    constructor
    · intro he
      have h0 := congrArg (fun f => (f 0).val) he
      have hh := h 0
      simp only [hstart, hwin] at h0 hh
      omega
    · intro he
      funext a
      obtain rfl : a = 0 := Subsingleton.elim _ _
      refine Fin.ext ?_
      show ((addVecDims N E wf).start j idx 0 + ((addVecDims N E wf).window j 0 : ℕ)).toNat = (i 0).val
      rw [hstart, hwin]
      omega
  · rename_i h
    constructor
    · intro he; exact absurd he (by simp)
    · intro he
      exfalso
      apply h
      intro a
      obtain rfl : a = 0 := Subsingleton.elim _ _
      rw [hstart, hwin]
      have : (⟨1, ![N]⟩ : Shape).size 0 = N := rfl
      omega

/-- At exact arithmetic, entry `i` of the segment sum into a vector is the operand's entry plus the sum over all
    `e` of "update `e` if the `e`-th index is `i`, else 0". -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : (⟨1, ![N]⟩ : Shape).Idx) :
    Host.scatterAdd (addVecDims N E wf) x idx upd i
      = x i + ∑ e : Fin E, if (idx (ix2 e (0 : Fin 1))).toInt = ((i 0).val : ℤ) then upd (ix1 e) else 0 := by
  show Ideal.hostScatterAdd (addVecDims N E wf) x idx upd i = _
  unfold Ideal.hostScatterAdd
  congr 1
  rw [Finset.sum_filter]
  refine Fintype.sum_equiv idxEquiv1 _ _ (fun j => ?_)
  obtain ⟨e, rfl⟩ : ∃ e, j = ix1 e := ⟨j 0, eq_ix1 j⟩
  exact if_congr (resultIdx?_vec_iff wf idx (ix1 e) i) rfl rfl

/-- The dimension numbers of a segment sum into a one-column matrix `[N, 1]`: updates `[E, 1]`, index column `[E, 1]`. -/
abbrev addRowDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when the `e`-th index, read signed, is `i`'s row. -/
theorem resultIdx?_row_iff {N E w : Nat} (wf : ScatterDims.WF ⟨2, ![N, 1]⟩ ⟨2, ![E, 1]⟩ ⟨2, ![E, 1]⟩ [1] [0] [0] 1)
    (idx : IVec ⟨2, ![E, 1]⟩ w) (j : (⟨2, ![E, 1]⟩ : Shape).Idx) (i : (⟨2, ![N, 1]⟩ : Shape).Idx) :
    (addRowDims N E wf).resultIdx? j idx = some i ↔ (idx (ix2 (j 0) (0 : Fin 1))).toInt = ((i 0).val : ℤ) := by
  have hi0 : (i 0).val < N := idx2_lt0 i
  have hi1 : (i 1).val < 1 := idx2_lt1 i
  have hj1 : (j 1).val < 1 := idx2_lt1 j
  have hstart0 : (addRowDims N E wf).start j idx 0 = (idx (ix2 (j 0) (0 : Fin 1))).toInt := by
    unfold ScatterDims.start
    rw [dif_pos (show (0 : Fin 2) ∈ (addRowDims N E wf).scatterDimsToOperandDims from List.mem_singleton.mpr rfl)]
    have hsi : (addRowDims N E wf).siIdx j ⟨List.idxOf (0 : Fin 2) (addRowDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowDims N E wf).window j 0 = 0 := by
    unfold ScatterDims.window
    rw [dif_neg (by simp [ScatterDims.sKept, Shape.kept])]
  have hstart1 : (addRowDims N E wf).start j idx 1 = 0 := by
    unfold ScatterDims.start
    rw [dif_neg (by simp [ScatterDims.sKept, Shape.kept])]
  have hwin1 : (addRowDims N E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have hh := h 0
      simp only [hstart0, hwin0] at h0 hh
      omega
    · intro he
      funext a
      refine Fin.ext ?_
      match a with
      | ⟨0, _⟩ =>
        show ((addRowDims N E wf).start j idx 0 + ((addRowDims N E wf).window j 0 : ℕ)).toNat = (i 0).val
        rw [hstart0, hwin0]
        omega
      | ⟨1, _⟩ =>
        show ((addRowDims N E wf).start j idx 1 + ((addRowDims N E wf).window j 1 : ℕ)).toNat = (i 1).val
        rw [hstart1, hwin1]
        omega
  · rename_i h
    constructor
    · intro he; exact absurd he (by simp)
    · intro he
      exfalso
      apply h
      intro a
      match a with
      | ⟨0, _⟩ =>
        show 0 ≤ (addRowDims N E wf).start j idx 0 + ((addRowDims N E wf).window j 0 : ℕ)
          ∧ (addRowDims N E wf).start j idx 0 + ((addRowDims N E wf).window j 0 : ℕ) < (N : ℤ)
        rw [hstart0, hwin0]
        omega
      | ⟨1, _⟩ =>
        show 0 ≤ (addRowDims N E wf).start j idx 1 + ((addRowDims N E wf).window j 1 : ℕ)
          ∧ (addRowDims N E wf).start j idx 1 + ((addRowDims N E wf).window j 1 : ℕ) < ((1 : ℕ) : ℤ)
        rw [hstart1, hwin1]
        omega

/-- At exact arithmetic, row `i` of the segment sum into a one-column matrix is the operand's row plus the sum over
    all `e` of "update row `e` if the `e`-th index is `i`'s row, else 0". -/
theorem scatterAdd_row_apply {N E w : Nat} {φ : FTy} (wf : ScatterDims.WF ⟨2, ![N, 1]⟩ ⟨2, ![E, 1]⟩ ⟨2, ![E, 1]⟩ [1] [0] [0] 1)
    (x : FVec Ideal ⟨2, ![N, 1]⟩ φ) (idx : IVec ⟨2, ![E, 1]⟩ w) (upd : FVec Ideal ⟨2, ![E, 1]⟩ φ)
    (i : (⟨2, ![N, 1]⟩ : Shape).Idx) :
    Host.scatterAdd (addRowDims N E wf) x idx upd i
      = x i + ∑ e : Fin E, if (idx (ix2 e (0 : Fin 1))).toInt = ((i 0).val : ℤ) then upd (ix2 e (0 : Fin 1)) else 0 := by
  show Ideal.hostScatterAdd (addRowDims N E wf) x idx upd i = _
  unfold Ideal.hostScatterAdd
  congr 1
  rw [Finset.sum_filter]
  refine Fintype.sum_equiv idxEquivCol _ _ (fun j => ?_)
  obtain ⟨e, rfl⟩ : ∃ e, j = ix2 e (0 : Fin 1) := ⟨j 0, funext fun a => match a with
    | ⟨0, _⟩ => rfl
    | ⟨1, _⟩ => Fin.ext (by have := idx2_lt1 j; show (j 1).val = 0; omega)⟩
  exact if_congr (resultIdx?_row_iff wf idx (ix2 e (0 : Fin 1)) i) rfl rfl

end Scatter

end LibSegmentIdx

end
-- ==== Proof.LibMaskSums.lean ====
/-
  Sums over a finite index set restricted by a mask, as a pairwise ranking loss needs them.

  * A double sum of products u i · v j over the pairs with p i and q j factors into the product of the two
    masked single sums (any commutative semiring): this is what turns a sum over all (positive, negative)
    pairs into a product of two row sums.
  * On the extended reals, multiplying a finite sum by a non-negative REAL constant distributes over the sum,
    whatever the summands (infinite ones included).
  * A one-bit word is 0 or 1; widened to 32 bits it is the natural number 0 or 1, and a natural number below
    2^31 read back from its 32-bit word as a signed integer is itself: so a wrapping 32-bit count of at most
    2^31 - 1 mask bits is the true count.
-/
import Mathlib.Data.EReal.Operations
import Mathlib.Data.BitVec
import Mathlib.Algebra.BigOperators.Ring.Finset
import Mathlib.Algebra.Order.BigOperators.Group.Finset

namespace LibMaskSums

open Finset

/-- The sum of u i · v j over the pairs (i, j) with p i and q j is the product of the sum of the u i with p i
    and the sum of the v j with q j. -/
theorem sum_mask_mul {R : Type*} [CommSemiring R] {ι κ : Type*} [Fintype ι] [Fintype κ] (p : ι → Prop) (q : κ → Prop)
    [DecidablePred p] [DecidablePred q] (u : ι → R) (v : κ → R) :
    ∑ i, ∑ j, (if p i ∧ q j then u i * v j else 0) = (∑ i, if p i then u i else 0) * (∑ j, if q j then v j else 0) := by
  rw [Finset.sum_mul_sum]
  refine Finset.sum_congr rfl fun i _ => Finset.sum_congr rfl fun j _ => ?_
  by_cases hp : p i <;> by_cases hq : q j <;> simp [hp, hq]

/-- A non-negative real factor distributes over a finite sum of extended reals. -/
theorem sum_mul_coe_of_nonneg {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A one-bit word is 0 or 1. -/
theorem bit_cases (c : BitVec 1) : c = 0#1 ∨ c = 1#1 := by
  by_cases h : c = 1#1
  · exact Or.inr h
  · left
    have := c.isLt
    apply BitVec.eq_of_toNat_eq
    have h' : c.toNat ≠ 1 := fun e => h (BitVec.eq_of_toNat_eq (by simpa using e))
    simp; omega

/-- Flipping a bit (exclusive or with 1) sets it exactly when it was clear. -/
theorem xor_one_eq_one_iff (c : BitVec 1) : c ^^^ 1#1 = 1#1 ↔ ¬ c = 1#1 := by
  rcases bit_cases c with rfl | rfl <;> decide

/-- The complement of a bit is set exactly when the bit was clear. -/
theorem not_eq_one_iff (c : BitVec 1) : ~~~c = 1#1 ↔ ¬ c = 1#1 := by
  rcases bit_cases c with rfl | rfl <;> decide

/-- The conjunction of two bits is set exactly when both are. -/
theorem and_eq_one_iff (c d : BitVec 1) : c &&& d = 1#1 ↔ c = 1#1 ∧ d = 1#1 := by
  rcases bit_cases c with rfl | rfl <;> rcases bit_cases d with rfl | rfl <;> decide

/-- A bit widened to 32 bits is the natural number 0 or 1 as a word. -/
theorem setWidth_bit (c : BitVec 1) : c.setWidth 32 = ((if c = 1#1 then 1 else 0 : ℕ) : BitVec 32) := by
  rcases bit_cases c with rfl | rfl <;> decide

/-- A bit widened to 32 bits and read as a signed integer is 0 or 1. -/
theorem toInt_setWidth_bit (c : BitVec 1) : (c.setWidth 32).toInt = if c = 1#1 then 1 else 0 := by
  rcases bit_cases c with rfl | rfl <;> decide

/-- A natural number below 2^31, stored in a 32-bit word and read back signed, is itself. -/
theorem toInt_natCast_of_lt (n : ℕ) (h : n < 2 ^ 31) : ((n : BitVec 32)).toInt = (n : ℤ) := by
  have hn : ((n : BitVec 32)).toNat = n := by
    rw [BitVec.natCast_eq_ofNat, BitVec.toNat_ofNat]; omega
  rw [BitVec.toInt_eq_toNat_of_lt (by rw [hn]; omega), hn]

/-- The wrapping 32-bit sum, from zero, of the words 0 or 1 marking the pairs (i, j) with p i and q j, read back
    signed, is the number of marked i times the number of marked j, provided the index sets together hold fewer
    than 2^31 pairs. -/
theorem toInt_pair_count {ι κ : Type*} [Fintype ι] [Fintype κ] (p : ι → Prop) (q : κ → Prop)
    [DecidablePred p] [DecidablePred q] (hcard : Fintype.card ι * Fintype.card κ < 2 ^ 31) :
    ((0#32 + ∑ i, ∑ j, ((if p i ∧ q j then 1 else 0 : ℕ) : BitVec 32)).toInt : ℝ)
      = (∑ i, if p i then (1 : ℝ) else 0) * (∑ j, if q j then (1 : ℝ) else 0) := by
  have hb : ∑ i : ι, ∑ j : κ, (if p i ∧ q j then 1 else 0 : ℕ) < 2 ^ 31 := by
    refine lt_of_le_of_lt ?_ hcard
    calc ∑ i : ι, ∑ j : κ, (if p i ∧ q j then 1 else 0 : ℕ)
        ≤ ∑ _i : ι, ∑ _j : κ, 1 :=
          Finset.sum_le_sum fun i _ => Finset.sum_le_sum fun j _ => by split <;> omega
      _ = Fintype.card ι * Fintype.card κ := by simp
  have hw : (0#32 + ∑ i, ∑ j, ((if p i ∧ q j then 1 else 0 : ℕ) : BitVec 32))
      = ((∑ i : ι, ∑ j : κ, (if p i ∧ q j then 1 else 0 : ℕ) : ℕ) : BitVec 32) := by
    rw [show (0#32 : BitVec 32) = 0 from rfl, zero_add]
    push_cast
    rfl
  rw [hw, toInt_natCast_of_lt _ hb]
  have := sum_mask_mul (R := ℝ) p q (fun _ => 1) (fun _ => 1)
  simp only [mul_one] at this
  rw [← this]
  push_cast
  rfl

end LibMaskSums
-- ==== Proof.LibGcnLaw.lean ====
/-
  The algebra of a graph-convolution layer with symmetric degree normalisation, on the extended reals.

  A layer sends node features h to  out[i] = Σ_{e : dst e = i} h[src e] · (s[src e] · s[dst e]) + b,  where s[i] is the
  reciprocal square root of the in-degree of node i. Because every edge summed into row i has dst e = i, the factor
  s[dst e] is the same number t = s[i] for all of them, and it can be taken out of the sum:
      Σ_e a_e · (u_e · t) = (Σ_e a_e · u_e) · t.
  On the extended reals this needs t to be a non-negative REAL (a product with +∞ does not distribute over a sum of mixed
  signs), and nothing of the summands: they may be infinite. When no edge enters row i both sums are empty and both
  sides are 0, whatever t is. When some edge enters row i the degree is a count that is at least 1, and its reciprocal
  square root is a positive real.
-/
import Mathlib.Data.EReal.Operations
import Idealize.ShloMosaic.PureOps.Ideal.Laws
import proofs.«172561_j61083024884001_2_alg».proof.Proof.LibMaskSums

noncomputable section

namespace GcnLaw

open Idealize.ShloMosaic

/-- A sum of ones over the entries that satisfy `P` is a real number, non-negative, and at least 1 as soon as one entry
    satisfies `P`. -/
theorem count_real {ι : Type*} (s : Finset ι) (P : ι → Prop) [DecidablePred P] :
    ∃ r : ℝ, (∑ e ∈ s, if P e then (1 : EReal) else 0) = (r : EReal) ∧ 0 ≤ r ∧ ((∃ e ∈ s, P e) → 1 ≤ r) := by
  classical
  induction s using Finset.induction_on with
  | empty => exact ⟨0, by simp, le_refl _, fun ⟨e, he, _⟩ => absurd he (Finset.notMem_empty e)⟩
  | insert a s ha ih =>
    obtain ⟨r, hr, hr0, hr1⟩ := ih
    rw [Finset.sum_insert ha, hr]
    by_cases hp : P a
    · refine ⟨1 + r, ?_, by linarith, fun _ => by linarith⟩
      rw [if_pos hp, EReal.coe_add, EReal.coe_one]
    · refine ⟨r, ?_, hr0, fun ⟨e, he, hpe⟩ => ?_⟩
      · rw [if_neg hp, zero_add]
      · rcases Finset.mem_insert.mp he with rfl | hs
        · exact absurd hpe hp
        · exact hr1 ⟨e, hs, hpe⟩

/-- The reciprocal square root of a degree that counts at least one edge is a non-negative real. -/
theorem rsqrt_count {ι : Type*} [Fintype ι] (P : ι → Prop) [DecidablePred P] (hex : ∃ e, P e) :
    ∃ c : ℝ, 0 ≤ c ∧ Ideal.rsqrt (0 + ∑ e, if P e then (1 : EReal) else 0) = (c : EReal) := by
  obtain ⟨r, hr, _, hr1⟩ := count_real Finset.univ P
  obtain ⟨e, he⟩ := hex
  have h1 : 1 ≤ r := hr1 ⟨e, Finset.mem_univ e, he⟩
  refine ⟨(Real.sqrt r)⁻¹, inv_nonneg.mpr (Real.sqrt_nonneg r), ?_⟩
  rw [hr, zero_add, Ideal.rsqrt_coe, if_neg (by linarith), if_neg (by linarith)]

/-- THE LAYER LAW. The common factor `t` of the edges summed into one row comes out of the sum: it is a non-negative
    real as soon as the sum has a term, and an empty sum is 0 on both sides. -/
theorem layer_law {ι : Type*} [Fintype ι] (P : ι → Prop) [DecidablePred P] (a u v : ι → EReal) (t b : EReal)
    (hv : ∀ e, P e → v e = t) (ht : (∃ e, P e) → ∃ c : ℝ, 0 ≤ c ∧ t = (c : EReal)) :
    (0 + ∑ e, if P e then a e * u e else 0) * t + b = (0 + ∑ e, if P e then a e * (u e * v e) else 0) + b := by
  congr 1
  rw [zero_add, zero_add]
  by_cases hex : ∃ e, P e
  · obtain ⟨c, hc, rfl⟩ := ht hex
    rw [← LibMaskSums.sum_mul_coe_of_nonneg _ _ c hc]
    refine Finset.sum_congr rfl fun e _ => ?_
    by_cases hp : P e
    · rw [if_pos hp, if_pos hp, hv e hp, mul_assoc]
    · rw [if_neg hp, if_neg hp, zero_mul]
  · have h0 : ∀ e, ¬ P e := fun e hp => hex ⟨e, hp⟩
    rw [Finset.sum_eq_zero (fun e _ => if_neg (h0 e)), Finset.sum_eq_zero (fun e _ => if_neg (h0 e)), zero_mul]

end GcnLaw

end
-- ==== Proof.LibGcnLayer.lean ====
/-
  One graph-convolution layer, in the two arrangements a program may spell it, as functions of whole arrays over any
  extents: N nodes, D features, E edges (self loops included).

  Both take the projected features, gather the row of each edge's source node, and sum the gathered rows into the row of
  the edge's destination node; s is the vector of reciprocal square roots of the in-degrees.
    * the edge-scaled form multiplies each gathered row by the edge's own norm s[src e] · s[dst e] before the sum;
    * the node-scaled form takes features that were already multiplied, row by row, by s (the prescale), sums the
      gathered rows with no per-edge factor, and multiplies row i of the sum by s[i] afterwards (the postscale).
  They agree entry by entry by the layer law (GcnLaw.layer_law): every edge summed into row i has destination i, so the
  destination's factor is the common factor s[i], a non-negative real whenever row i receives an edge at all.
  What the law asks about the index columns and about s is stated as two hypotheses, which a program's own index
  arithmetic and degree computation discharge.
-/
import Idealize.ShloMosaic.Lib.ValueIdx
import Idealize.ShloMosaic.Lib.Pipeline.Value
import Idealize.ShloMosaic.PureOps.Ideal.Laws
import proofs.«172561_j61083024884001_2_alg».proof.Proof.LibRowGather
import proofs.«172561_j61083024884001_2_alg».proof.Proof.LibRowScatter
import proofs.«172561_j61083024884001_2_alg».proof.Proof.LibSegmentIdx
import proofs.«172561_j61083024884001_2_alg».proof.Proof.LibGcnLaw

noncomputable section

namespace GcnLayer

open Idealize.ShloMosaic Idealize.ShloMosaic.ValueIdx

/-! ## Broadcasts along named axes, read at an entry -/

section Layouts

variable {α : Type}

/-- A vector of length n placed as the [n, 1] column reads, at (e, 0), the vector at e. -/
theorem col_of_vec_apply {n : ℕ} (h : (⟨1, ![n]⟩ : Shape).BroadcastsInDim ⟨2, ![n, 1]⟩ (![0] : Fin 1 → Fin 2))
    (x : (⟨1, ![n]⟩ : Shape).Idx → α) (e : Fin n) (z : Fin 1) :
    broadcastInDim ⟨2, ![n, 1]⟩ (![0] : Fin 1 → Fin 2) h x (ix2 e z) = x (ix1 e) := by
  refine broadcastInDim_apply _ h x _ _ fun a => ?_
  match a with
  | ⟨0, _⟩ =>
    show e.val = if n = 1 then 0 else e.val
    split
    · have := e.isLt; omega
    · rfl

/-- An [a, 1] column stretched to [a, b] reads, at (p, q), the column at p. -/
theorem mat_of_col_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ (![0, 1] : Fin 2 → Fin 2) h x (ix2 p q) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

/-- A vector of length b placed as the [1, b] row reads, at (0, q), the vector at q. -/
theorem row_of_vec_apply {b : ℕ} (h : (⟨1, ![b]⟩ : Shape).BroadcastsInDim ⟨2, ![1, b]⟩ (![1] : Fin 1 → Fin 2))
    (x : (⟨1, ![b]⟩ : Shape).Idx → α) (z : Fin 1) (q : Fin b) :
    broadcastInDim ⟨2, ![1, b]⟩ (![1] : Fin 1 → Fin 2) h x (ix2 z q) = x (ix1 q) := by
  refine broadcastInDim_apply _ h x _ _ fun a => ?_
  match a with
  | ⟨0, _⟩ =>
    show q.val = if b = 1 then 0 else q.val
    split
    · have := q.isLt; omega
    · rfl

/-- A [1, b] row stretched to [a, b] reads, at (p, q), the row at q. -/
theorem mat_of_row_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ (![0, 1] : Fin 2 → Fin 2) h x (ix2 p q) = x (ix2 (0 : Fin 1) q) := by
  refine broadcastInDim_apply _ h x _ _ fun ax => ?_
  match ax with
  | ⟨0, _⟩ => rfl
  | ⟨1, _⟩ =>
    show q.val = if b = 1 then 0 else q.val
    split
    · have := q.isLt; omega
    · rfl

/-- A scalar stretched to any shape reads the scalar everywhere. -/
theorem splat_apply {t : Shape} (h : (⟨0, ![]⟩ : Shape).BroadcastsInDim t (![] : Fin 0 → Fin t.rank))
    (x : (⟨0, ![]⟩ : Shape).Idx → α) (j : t.Idx) :
    broadcastInDim t (![] : Fin 0 → Fin t.rank) h x j = x (fun a => a.elim0) :=
  broadcastInDim_apply _ h x j _ fun a => a.elim0

end Layouts

/-! ## The two arrangements of a layer -/

/-- The shape relations the operations of a layer ask of its extents. -/
structure Extents (N D E : ℕ) : Prop where
  hN : 0 < N
  wfG : GatherDims.WF ⟨2, ![N, D]⟩ ⟨2, ![E, 1]⟩ ⟨2, ![E, D]⟩ [1] [0] [] [0] [] 1 ![1, D]
  wfS : ScatterDims.WF ⟨2, ![N, D]⟩ ⟨2, ![E, 1]⟩ ⟨2, ![E, D]⟩ [1] [0] [0] 1
  wfV : GatherDims.WF ⟨1, ![N]⟩ ⟨2, ![E, 1]⟩ ⟨1, ![E]⟩ [] [0] [] [0] [] 1 ![1]
  b0 : (⟨0, ![]⟩ : Shape).BroadcastsInDim ⟨2, ![N, D]⟩ (![] : Fin 0 → Fin 2)
  bNcol : (⟨1, ![N]⟩ : Shape).BroadcastsInDim ⟨2, ![N, 1]⟩ (![0] : Fin 1 → Fin 2)
  bNmat : (⟨2, ![N, 1]⟩ : Shape).BroadcastsInDim ⟨2, ![N, D]⟩ (![0, 1] : Fin 2 → Fin 2)
  bEcol : (⟨1, ![E]⟩ : Shape).BroadcastsInDim ⟨2, ![E, 1]⟩ (![0] : Fin 1 → Fin 2)
  bEmat : (⟨2, ![E, 1]⟩ : Shape).BroadcastsInDim ⟨2, ![E, D]⟩ (![0, 1] : Fin 2 → Fin 2)
  bDrow : (⟨1, ![D]⟩ : Shape).BroadcastsInDim ⟨2, ![1, D]⟩ (![1] : Fin 1 → Fin 2)
  bDmat : (⟨2, ![1, D]⟩ : Shape).BroadcastsInDim ⟨2, ![N, D]⟩ (![0, 1] : Fin 2 → Fin 2)

variable {N D E : ℕ}

/-- The bias vector as the [N, D] matrix of its copies. -/
def biasMat (f : Extents N D E) (b : FVec Ideal ⟨1, ![D]⟩ .f32) : FVec Ideal ⟨2, ![N, D]⟩ .f32 :=
  broadcastInDim ⟨2, ![N, D]⟩ (![0, 1] : Fin 2 → Fin 2) f.bDmat (broadcastInDim ⟨2, ![1, D]⟩ (![1] : Fin 1 → Fin 2) f.bDrow b)

/-- The zero matrix the segment sum starts from. -/
def zeroMat (f : Extents N D E) : FVec Ideal ⟨2, ![N, D]⟩ .f32 :=
  broadcastInDim ⟨2, ![N, D]⟩ (![] : Fin 0 → Fin 2) f.b0 (constant (F := Ideal) ⟨0, ![]⟩ .f32 0x00000000#32)

/-- THE NODE-SCALED FORM: prescaled features `hs`, gathered by source, summed by destination, then each row times s. -/
def nodeScaled (f : Extents N D E) (hs : FVec Ideal ⟨2, ![N, D]⟩ .f32) (sv : FVec Ideal ⟨1, ![N]⟩ .f32)
    (idxS idxD : IVec ⟨2, ![E, 1]⟩ 32) (b : FVec Ideal ⟨1, ![D]⟩ .f32) : FVec Ideal ⟨2, ![N, D]⟩ .f32 :=
  addf (mulf (Host.scatterAdd (LibRowScatter.addRowsDims N D E f.wfS) (zeroMat f) idxD
        (Host.gather (LibRowGather.rowDims N D E f.wfG) hs idxS))
      (broadcastInDim ⟨2, ![N, D]⟩ (![0, 1] : Fin 2 → Fin 2) f.bNmat
        (broadcastInDim ⟨2, ![N, 1]⟩ (![0] : Fin 1 → Fin 2) f.bNcol sv)))
    (biasMat f b)

/-- THE EDGE-SCALED FORM: features `h`, gathered by source, each gathered row times its edge's norm
    s[src e] · s[dst e], summed by destination. -/
def edgeScaled (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32) : FVec Ideal ⟨2, ![N, D]⟩ .f32 :=
  addf (Host.scatterAdd (LibRowScatter.addRowsDims N D E f.wfS) (zeroMat f) idxD
      (mulf (Host.gather (LibRowGather.rowDims N D E f.wfG) h idxS)
        (broadcastInDim ⟨2, ![E, D]⟩ (![0, 1] : Fin 2 → Fin 2) f.bEmat
          (broadcastInDim ⟨2, ![E, 1]⟩ (![0] : Fin 1 → Fin 2) f.bEcol
            (mulf (Host.gather (LibSegmentIdx.takeVecDims N E f.wfV) sv idxS)
              (Host.gather (LibSegmentIdx.takeVecDims N E f.wfV) sv idxND))))))
    (biasMat f b)

/-- THE TWO FORMS AGREE, given that the prescaled features are the features times s row by row (`hhs`), that an edge
    summed into row i gathers its destination's factor at row i (`hA`: the index column the sum reads and the one the
    factor is gathered by name the same node), and that s at a row receiving an edge is a non-negative real (`hB`). -/
theorem nodeScaled_eq_edgeScaled (f : Extents N D E) (h hs : FVec Ideal ⟨2, ![N, D]⟩ .f32) (sv : FVec Ideal ⟨1, ![N]⟩ .f32)
    (idxS idxD idxND : IVec ⟨2, ![E, 1]⟩ 32) (b : FVec Ideal ⟨1, ![D]⟩ .f32)
    (hhs : ∀ (i : Fin N) (j : Fin D), hs (ix2 i j) = h (ix2 i j) * sv (ix1 i))
    (hA : ∀ (e : Fin E) (i : Fin N), (idxD (ix2 e (0 : Fin 1))).toInt = ((i : ℕ) : ℤ) →
      LibRowGather.clampRow N f.hN (idxND (ix2 e (0 : Fin 1))) = i)
    (hB : ∀ i : Fin N, (∃ e : Fin E, (idxD (ix2 e (0 : Fin 1))).toInt = ((i : ℕ) : ℤ)) →
      ∃ c : ℝ, 0 ≤ c ∧ sv (ix1 i) = (c : EReal)) :
    nodeScaled f hs sv idxS idxD b = edgeScaled f h sv idxS idxD idxND b := by
  funext idx
  obtain ⟨i, j, rfl⟩ : ∃ (i : Fin N) (j : Fin D), idx = ix2 i j := ⟨idx 0, idx 1, eq_ix2 idx⟩
  unfold nodeScaled edgeScaled
  rw [addf_apply, addf_apply, mulf_apply, LibRowScatter.scatterAdd_rows_apply, LibRowScatter.scatterAdd_rows_apply,
    mat_of_col_apply, col_of_vec_apply]
  have hz : zeroMat f (ix2 i j) = 0 := by
    unfold zeroMat
    rw [splat_apply, constant_apply, Ideal.ofBits_zero_f32]
  have hL : ∀ e : Fin E, Host.gather (LibRowGather.rowDims N D E f.wfG) hs idxS (ix2 e j)
      = h (ix2 (LibRowGather.clampRow N f.hN (idxS (ix2 e (0 : Fin 1)))) j)
        * sv (ix1 (LibRowGather.clampRow N f.hN (idxS (ix2 e (0 : Fin 1))))) := fun e => by
    rw [LibRowGather.gather_rows_apply f.hN, hhs]
  have hR : ∀ e : Fin E, (mulf (Host.gather (LibRowGather.rowDims N D E f.wfG) h idxS)
        (broadcastInDim ⟨2, ![E, D]⟩ (![0, 1] : Fin 2 → Fin 2) f.bEmat
          (broadcastInDim ⟨2, ![E, 1]⟩ (![0] : Fin 1 → Fin 2) f.bEcol
            (mulf (Host.gather (LibSegmentIdx.takeVecDims N E f.wfV) sv idxS)
              (Host.gather (LibSegmentIdx.takeVecDims N E f.wfV) sv idxND))))) (ix2 e j)
      = h (ix2 (LibRowGather.clampRow N f.hN (idxS (ix2 e (0 : Fin 1)))) j)
        * (sv (ix1 (LibRowGather.clampRow N f.hN (idxS (ix2 e (0 : Fin 1)))))
          * sv (ix1 (LibRowGather.clampRow N f.hN (idxND (ix2 e (0 : Fin 1)))))) := fun e => by
    rw [mulf_apply, LibRowGather.gather_rows_apply f.hN, mat_of_col_apply, col_of_vec_apply, mulf_apply,
      LibSegmentIdx.gather_vec_apply f.hN, LibSegmentIdx.gather_vec_apply f.hN]
    rfl
  rw [hz]
  simp only [hL, hR]
  exact GcnLaw.layer_law (fun e : Fin E => (idxD (ix2 e (0 : Fin 1))).toInt = ((i : ℕ) : ℤ))
    (fun e => h (ix2 (LibRowGather.clampRow N f.hN (idxS (ix2 e (0 : Fin 1)))) j))
    (fun e => sv (ix1 (LibRowGather.clampRow N f.hN (idxS (ix2 e (0 : Fin 1))))))
    (fun e => sv (ix1 (LibRowGather.clampRow N f.hN (idxND (ix2 e (0 : Fin 1))))))
    (sv (ix1 i)) (biasMat f b (ix2 i j))
    (fun e he => by rw [hA e i he]) (hB i)

end GcnLayer

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.LibGcnIndex.lean ====
/-
  The graph's index columns and degrees, over any extents: N nodes, E edges (self loops included).

  A program spells a node index three ways: the raw signed word the segment sum reads (a word outside [0, N) lands
  nowhere), the word with a negative value wrapped by + N, and that word clamped into [0, N − 1] by the gather. For an
  edge that the segment sum adds into row i the raw word IS i, with 0 ≤ i < N, so the wrap leaves it alone and the clamp
  leaves it alone: the gathered factor of the edge's destination is the factor of row i.

  The in-degree of node i is the segment sum of ones over the destination column, a count of edges, and the node's
  factor is its reciprocal square root. At a node that some edge enters the count is at least 1 and the factor is a
  non-negative real number.
-/
import Idealize.ShloMosaic.Lib.ValueIdx
import Idealize.ShloMosaic.Lib.Pipeline.Value
import Idealize.ShloMosaic.PureOps.Ideal.Laws
import proofs.«172561_j61083024884001_2_alg».proof.Proof.LibRowGather
import proofs.«172561_j61083024884001_2_alg».proof.Proof.LibSegmentIdx
import proofs.«172561_j61083024884001_2_alg».proof.Proof.LibReciprocalScale
import proofs.«172561_j61083024884001_2_alg».proof.Proof.LibGcnLaw
import proofs.«172561_j61083024884001_2_alg».proof.Proof.LibGcnLayer

noncomputable section

namespace GcnIndex

open Idealize.ShloMosaic Idealize.ShloMosaic.ValueIdx

/-- The shape relations the index and degree operations ask of the extents. -/
structure Extents (N E : ℕ) : Prop where
  hN : 0 < N
  bE0 : (⟨0, ![]⟩ : Shape).BroadcastsInDim ⟨1, ![E]⟩ (![] : Fin 0 → Fin 1)
  bN0 : (⟨0, ![]⟩ : Shape).BroadcastsInDim ⟨1, ![N]⟩ (![] : Fin 0 → Fin 1)
  bEcol : (⟨1, ![E]⟩ : Shape).BroadcastsInDim ⟨2, ![E, 1]⟩ (![0] : Fin 1 → Fin 2)
  wfSV : ScatterDims.WF ⟨1, ![N]⟩ ⟨2, ![E, 1]⟩ ⟨1, ![E]⟩ [] [0] [0] 1

variable {N E : ℕ}

/-- A vector of node indices as the [E, 1] index column. -/
def col (f : Extents N E) (v : IVec ⟨1, ![E]⟩ 32) : IVec ⟨2, ![E, 1]⟩ 32 :=
  broadcastInDim ⟨2, ![E, 1]⟩ (![0] : Fin 1 → Fin 2) f.bEcol v

/-- A vector of node indices with negative entries wrapped by adding the word `nw` (the node count). -/
def wrap (f : Extents N E) (nw : BitVec 32) (v : IVec ⟨1, ![E]⟩ 32) : IVec ⟨1, ![E]⟩ 32 :=
  select (cmpi .slt v (broadcastInDim ⟨1, ![E]⟩ (![] : Fin 0 → Fin 1) f.bE0 (constantI ⟨0, ![]⟩ 32 0#32)))
    (addi v (broadcastInDim ⟨1, ![E]⟩ (![] : Fin 0 → Fin 1) f.bE0 (constantI ⟨0, ![]⟩ 32 nw))) v

/-- The in-degrees: the segment sum of ones over the destination column, from zero. -/
def deg (f : Extents N E) (d : IVec ⟨1, ![E]⟩ 32) : FVec Ideal ⟨1, ![N]⟩ .f32 :=
  Host.scatterAdd (F := Ideal) (LibSegmentIdx.addVecDims N E f.wfSV)
    (broadcastInDim ⟨1, ![N]⟩ (![] : Fin 0 → Fin 1) f.bN0 (constant (F := Ideal) ⟨0, ![]⟩ .f32 0x00000000#32))
    (col f d)
    (broadcastInDim ⟨1, ![E]⟩ (![] : Fin 0 → Fin 1) f.bE0 (constant (F := Ideal) ⟨0, ![]⟩ .f32 0x3F800000#32))

/-- The nodes' factors: the reciprocal square roots of the in-degrees. -/
def invSqrtDeg (f : Extents N E) (d : IVec ⟨1, ![E]⟩ 32) : FVec Ideal ⟨1, ![N]⟩ .f32 :=
  Host.rsqrt (F := Ideal) (deg f d)

/-- A word whose signed value is not negative is left alone by the wrap. -/
theorem wrap_apply_of_nonneg (f : Extents N E) (nw : BitVec 32) (d : IVec ⟨1, ![E]⟩ 32) (e : Fin E)
    (h : 0 ≤ (d (ix1 e)).toInt) : wrap f nw d (ix1 e) = d (ix1 e) := by
  unfold wrap
  show Scalar.select (IntOp.cmpi .slt (d (ix1 e))
      (broadcastInDim ⟨1, ![E]⟩ (![] : Fin 0 → Fin 1) f.bE0 (constantI ⟨0, ![]⟩ 32 0#32) (ix1 e))) _ (d (ix1 e)) = d (ix1 e)
  rw [GcnLayer.splat_apply]
  show Scalar.select (BitVec.ofBool ((d (ix1 e)).slt 0#32)) _ (d (ix1 e)) = d (ix1 e)
  have hs : (d (ix1 e)).slt 0#32 = false := by
    unfold BitVec.slt
    simp only [BitVec.toInt_zero, decide_eq_false_iff_not, not_lt]
    exact h
  rw [hs]
  rfl

/-- THE DESTINATION'S ROW: for an edge the segment sum adds into row i, the wrapped and clamped destination is i. -/
theorem wrap_clamp (f : Extents N E) (nw : BitVec 32) (d : IVec ⟨1, ![E]⟩ 32) (e : Fin E) (i : Fin N)
    (h : (col f d (ix2 e (0 : Fin 1))).toInt = ((i : ℕ) : ℤ)) :
    LibRowGather.clampRow N f.hN (col f (wrap f nw d) (ix2 e (0 : Fin 1))) = i := by
  unfold col at h ⊢
  rw [GcnLayer.col_of_vec_apply] at h ⊢
  rw [wrap_apply_of_nonneg f nw d e (by rw [h]; exact Int.natCast_nonneg _)]
  apply Fin.ext
  show min (d (ix1 e)).toInt.toNat (N - 1) = i.val
  rw [h, Int.toNat_natCast]
  have := i.isLt
  omega

/-- THE FACTOR IS REAL at a node that some edge enters. -/
theorem invSqrtDeg_real (f : Extents N E) (d : IVec ⟨1, ![E]⟩ 32) (i : Fin N)
    (hex : ∃ e : Fin E, (col f d (ix2 e (0 : Fin 1))).toInt = ((i : ℕ) : ℤ)) :
    ∃ c : ℝ, 0 ≤ c ∧ invSqrtDeg f d (ix1 i) = (c : EReal) := by
  obtain ⟨c, hc, hcv⟩ := GcnLaw.rsqrt_count (fun e : Fin E => (col f d (ix2 e (0 : Fin 1))).toInt = ((i : ℕ) : ℤ)) hex
  refine ⟨c, hc, ?_⟩
  rw [← hcv]
  show Ideal.rsqrt (deg f d (ix1 i)) = _
  congr 1
  unfold deg
  rw [LibSegmentIdx.scatterAdd_vec_apply, GcnLayer.splat_apply, constant_apply, Ideal.ofBits_zero_f32]
  congr 1
  refine Finset.sum_congr rfl fun e _ => ?_
  rw [GcnLayer.splat_apply, constant_apply, LibReciprocalScale.ofBits_one_f32]
  rfl

end GcnIndex

end
-- ==== Proof.KernelValue.lean ====
/-
  The idealized kernel's result as one term of its six argument arrays.

  Read back through @main's segments (the run: KernelRun.lean), the result buffer holds
      log_softmax ( layer₂ ( relu ( layer₁ x ) ) ),
  each layer in the NODE-SCALED arrangement (GcnLayer.nodeScaled): the projection kernel's output array is the
  projected features with row i already multiplied by node i's factor s[i] (KernelBlocks.lean: `proj0`, `proj1`), the
  host gathers those rows by source node and sums them by destination node with no per-edge factor, and then
  multiplies row i of the sum by s[i] and adds the bias. The second layer's weight is padded with 122 zero columns
  before its kernel and the 6 real columns are sliced out after it.
  s, the index columns and the degrees are the graph's (GcnIndex.lean), computed once from the edge list with self loops
  appended.
-/
import proofs.«172561_j61083024884001_2_alg».proof.Proof.Gen.KernelIdeal.Frame
import Idealize.ShloMosaic.Lib.StableHlo.Run
import Idealize.ShloMosaic.PureOps.Ideal.Laws
import proofs.«172561_j61083024884001_2_alg».proof.Proof.KernelBlocks
import proofs.«172561_j61083024884001_2_alg».proof.Proof.LibGcnLayer
import proofs.«172561_j61083024884001_2_alg».proof.Proof.LibGcnIndex

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

/-! ## The terms -/

section Terms

variable (f1 : GcnLayer.Extents 10000 1024 170000) (f2 : GcnLayer.Extents 10000 6 170000) (g : GcnIndex.Extents 10000 170000)

/-- The edges' source nodes, the self loops' appended: row 0 of the edge list, then 0 … 9999. -/
def srcT (a1 : IVec S2x160000 32) : IVec S170000 32 :=
  concatenate S170000 0 [⟨S160000, shapeCast _ (extractStridedSlice S1x160000 ![0, 0] a1 slices_S2x160000_S1x160000_0_0) shapeCasts_S1x160000_S160000⟩,
    ⟨S10000, iotaInDim S10000 32 0⟩] concatenates_S160000_S10000_S170000_d0

/-- The edges' destination nodes, the self loops' appended: row 1 of the edge list, then 0 … 9999. -/
def dstT (a1 : IVec S2x160000 32) : IVec S170000 32 :=
  concatenate S170000 0 [⟨S160000, shapeCast _ (extractStridedSlice S1x160000 ![1, 0] a1 slices_S2x160000_S1x160000_1_0) shapeCasts_S1x160000_S160000⟩,
    ⟨S10000, iotaInDim S10000 32 0⟩] concatenates_S160000_S10000_S170000_d0

/-- The index column the gathers read: the sources, negative words wrapped. -/
def idxS (a1 : IVec S2x160000 32) : IVec S170000x1 32 := GcnIndex.col g (GcnIndex.wrap g 10000#32 (srcT a1))
/-- The index column the segment sums read: the raw destinations. -/
def idxD (a1 : IVec S2x160000 32) : IVec S170000x1 32 := GcnIndex.col g (dstT a1)
/-- The nodes' factors. -/
def sv (a1 : IVec S2x160000 32) : FVec Ideal S10000 .f32 := GcnIndex.invSqrtDeg g (dstT a1)
/-- The nodes' factors as the [10000, 1] column the kernels read. -/
def scol (a1 : IVec S2x160000 32) : FVec Ideal S10000x1 .f32 :=
  broadcastInDim S10000x1 ![0] bcast_S10000_S10000x1_0 (sv g a1)

/-- Layer 1, node-scaled, before the relu. -/
def layer1 (a0 : FVec Ideal S10000x3703 .f32) (a1 : IVec S2x160000 32) (a2 : FVec Ideal S3703x1024 .f32) (a3 : FVec Ideal S1024 .f32) :
    FVec Ideal S10000x1024 .f32 :=
  GcnLayer.nodeScaled f1 (Blocks.proj0 a0 (truncf (F := Ideal) .bf16 a2 bitsLt_bf16_f32) (scol g a1)) (sv g a1) (idxS g a1) (idxD g a1) a3

/-- relu: the maximum with the zero matrix. -/
def reluT (y : FVec Ideal S10000x1024 .f32) : FVec Ideal S10000x1024 .f32 :=
  maximumf (F := Ideal) y (broadcastInDim S10000x1024 ![] bcast_S_S10000x1024 (constant (F := Ideal) S_ .f32 0x00000000#32))

/-- The second weight with 122 zero columns appended. -/
def padT (a4 : FVec Ideal S1024x6 .f32) : FVec Ideal S1024x128 .f32 :=
  pad S1024x128 ![0, 0] ![0, 122] ![0, 0] a4 (sitofp (F := Ideal) .f32 (constantI S_ 32 0#32)) pads_S1024x6_S1024x128_000_01220 h_S_

/-- The second kernel's prescaled features: its output array's first 6 columns. -/
def hs2 (h1 : FVec Ideal S10000x1024 .f32) (a1 : IVec S2x160000 32) (a4 : FVec Ideal S1024x6 .f32) : FVec Ideal S10000x6 .f32 :=
  extractStridedSlice S10000x6 ![0, 0] (Blocks.proj1 h1 (truncf (F := Ideal) .bf16 (padT a4) bitsLt_bf16_f32) (scol g a1)) slices_S10000x128_S10000x6_0_0

/-- Layer 2, node-scaled. -/
def layer2 (h1 : FVec Ideal S10000x1024 .f32) (a1 : IVec S2x160000 32) (a4 : FVec Ideal S1024x6 .f32) (a5 : FVec Ideal S6 .f32) :
    FVec Ideal S10000x6 .f32 :=
  GcnLayer.nodeScaled f2 (hs2 g h1 a1 a4) (sv g a1) (idxS g a1) (idxD g a1) a5

/-- The row maxima of the logits, from −∞. -/
def rowMax (y : FVec Ideal S10000x6 .f32) : FVec Ideal S10000 .f32 :=
  maximumf (F := Ideal) (broadcastInDim S10000 ![] bcast_S_S10000 (constant (F := Ideal) S_ .f32 0xFF800000#32))
    (Host.reduce FloatOps.maximumf y (constant (F := Ideal) S_ .f32 0xFF800000#32) reducesTo_S10000x6_S10000_d1 h_S_)

/-- The logits less their row maxima. -/
def shifted (y : FVec Ideal S10000x6 .f32) : FVec Ideal S10000x6 .f32 :=
  subf (F := Ideal) y (broadcastInDim S10000x6 ![0, 1] bcast_S10000x1_S10000x6_0_1 (broadcastInDim S10000x1 ![0] bcast_S10000_S10000x1_0 (rowMax y)))

/-- log_softmax along the 6 classes: the shifted logits less the log of the row sums of their exponentials. -/
def logSoftmax (y : FVec Ideal S10000x6 .f32) : FVec Ideal S10000x6 .f32 :=
  subf (F := Ideal) (shifted y) (broadcastInDim S10000x6 ![0, 1] bcast_S10000x1_S10000x6_0_1
    (Host.log (F := Ideal) (broadcastInDim S10000x1 ![0] bcast_S10000_S10000x1_0
      (Host.reduceAdd (F := Ideal) (Host.exp (F := Ideal) (shifted y)) (constant (F := Ideal) S_ .f32 0x00000000#32) reducesTo_S10000x6_S10000_d1 h_S_))))

/-- THE KERNEL'S RESULT as one term of the six arguments. -/
def out (a0 : FVec Ideal S10000x3703 .f32) (a1 : IVec S2x160000 32) (a2 : FVec Ideal S3703x1024 .f32) (a3 : FVec Ideal S1024 .f32)
    (a4 : FVec Ideal S1024x6 .f32) (a5 : FVec Ideal S6 .f32) : FVec Ideal S10000x6 .f32 :=
  logSoftmax (layer2 f2 g (reluT (layer1 f1 g a0 a1 a2 a3)) a1 a4 a5)

end Terms

/-! ## The boundaries, read -/

variable (f1 : GcnLayer.Extents 10000 1024 170000) (f2 : GcnLayer.Extents 10000 6 170000) (g : GcnIndex.Extents 10000 170000)
variable (m : (ℓ : Loc nD τ sig) → Buf (Elt Ideal) ℓ) (ρ : Dev nD → PrngReg) (c : Dev nD)

/-- The six argument arrays as launched. -/
abbrev arg0 : FVec Ideal S10000x3703 .f32 := m ((c : Thread nD τ).loc main_arg0)
abbrev arg1 : IVec S2x160000 32 := m ((c : Thread nD τ).loc main_arg1)
abbrev arg2 : FVec Ideal S3703x1024 .f32 := m ((c : Thread nD τ).loc main_arg2)
abbrev arg3 : FVec Ideal S1024 .f32 := m ((c : Thread nD τ).loc main_arg3)
abbrev arg4 : FVec Ideal S1024x6 .f32 := m ((c : Thread nD τ).loc main_arg4)
abbrev arg5 : FVec Ideal S6 .f32 := m ((c : Thread nD τ).loc main_arg5)

/-! ### After the first stretch (the first kernel's entry) -/

theorem w1_arg0 : (W1 m ρ c (Proc.devRef .tc main_arg0) : FVec Ideal S10000x3703 .f32) = (arg0 m c) := by
  show StableHlo.after hostOps0 (W0 m ρ c) (Proc.devRef .tc main_arg0) = _
  after_results
theorem w1_arg3 : (W1 m ρ c (Proc.devRef .tc main_arg3) : FVec Ideal S1024 .f32) = (arg3 m c) := by
  show StableHlo.after hostOps0 (W0 m ρ c) (Proc.devRef .tc main_arg3) = _
  after_results
theorem w1_arg4 : (W1 m ρ c (Proc.devRef .tc main_arg4) : FVec Ideal S1024x6 .f32) = (arg4 m c) := by
  show StableHlo.after hostOps0 (W0 m ρ c) (Proc.devRef .tc main_arg4) = _
  after_results
theorem w1_arg5 : (W1 m ρ c (Proc.devRef .tc main_arg5) : FVec Ideal S6 .f32) = (arg5 m c) := by
  show StableHlo.after hostOps0 (W0 m ρ c) (Proc.devRef .tc main_arg5) = _
  after_results
theorem w1_v3 : (W1 m ρ c (Proc.devRef .tc main_v3) : IVec S170000 32) = srcT (arg1 m c) := by
  show StableHlo.after hostOps0 (W0 m ρ c) (Proc.devRef .tc main_v3) = _
  after_results
  rfl
theorem w1_v6 : (W1 m ρ c (Proc.devRef .tc main_v6) : IVec S170000 32) = dstT (arg1 m c) := by
  show StableHlo.after hostOps0 (W0 m ρ c) (Proc.devRef .tc main_v6) = _
  after_results
  rfl
theorem w1_v12 : (W1 m ρ c (Proc.devRef .tc main_v12) : FVec Ideal S10000x1 .f32) = scol g (arg1 m c) := by
  show StableHlo.after hostOps0 (W0 m ρ c) (Proc.devRef .tc main_v12) = _
  after_results
  rfl
theorem w1_v13 : (W1 m ρ c (Proc.devRef .tc main_v13) : FVec Ideal S3703x1024 .f32) = truncf (F := Ideal) .bf16 (arg2 m c) bitsLt_bf16_f32 := by
  show StableHlo.after hostOps0 (W0 m ρ c) (Proc.devRef .tc main_v13) = _
  after_results

/-! ### After the first kernel -/

theorem w2_v14 : (W2 m ρ c (Proc.devRef .tc main_v14) : FVec Ideal S10000x1024 .f32)
    = Blocks.proj0 (arg0 m c) (truncf (F := Ideal) .bf16 (arg2 m c) bitsLt_bf16_f32) (scol g (arg1 m c)) := by
  refine (W2_arr m ρ c 3).trans ((Blocks.final0 (V1 m ρ) c).trans ?_)
  show Blocks.proj0 (W1 m ρ c (Proc.devRef .tc main_arg0)) (W1 m ρ c (Proc.devRef .tc main_v13)) (W1 m ρ c (Proc.devRef .tc main_v12)) = _
  rw [w1_arg0, w1_v13, w1_v12 g]
theorem w2_v12 : (W2 m ρ c (Proc.devRef .tc main_v12) : FVec Ideal S10000x1 .f32) = scol g (arg1 m c) :=
  ((W2_arr m ρ c 2).trans (((dat0 (V1 m ρ) c).arrAt_in 2 rfl _).trans (A_eq0 (V1 m ρ) c 2))).trans (w1_v12 g m ρ c)
theorem w2_v3 : (W2 m ρ c (Proc.devRef .tc main_v3) : IVec S170000 32) = srcT (arg1 m c) :=
  (W2_of_ne m ρ c main_v3 (by decide)).trans (w1_v3 m ρ c)
theorem w2_v6 : (W2 m ρ c (Proc.devRef .tc main_v6) : IVec S170000 32) = dstT (arg1 m c) :=
  (W2_of_ne m ρ c main_v6 (by decide)).trans (w1_v6 m ρ c)
theorem w2_arg3 : (W2 m ρ c (Proc.devRef .tc main_arg3) : FVec Ideal S1024 .f32) = (arg3 m c) :=
  (W2_of_ne m ρ c main_arg3 (by decide)).trans (w1_arg3 m ρ c)
theorem w2_arg4 : (W2 m ρ c (Proc.devRef .tc main_arg4) : FVec Ideal S1024x6 .f32) = (arg4 m c) :=
  (W2_of_ne m ρ c main_arg4 (by decide)).trans (w1_arg4 m ρ c)
theorem w2_arg5 : (W2 m ρ c (Proc.devRef .tc main_arg5) : FVec Ideal S6 .f32) = (arg5 m c) :=
  (W2_of_ne m ρ c main_arg5 (by decide)).trans (w1_arg5 m ρ c)

/-! ### After the five middle stretches (the second kernel's entry) -/

set_option maxHeartbeats 2000000 in
theorem w7_v30 : (W7 m ρ c (Proc.devRef .tc main_v30) : FVec Ideal S10000x1024 .f32) = reluT (layer1 f1 g (arg0 m c) (arg1 m c) (arg2 m c) (arg3 m c)) := by
  show StableHlo.after hostOps1_4 (StableHlo.after hostOps1_3 (StableHlo.after hostOps1_2 (StableHlo.after hostOps1_1
    (StableHlo.after hostOps1 (W2 m ρ c))))) (Proc.devRef .tc main_v30) = _
  after_results
  rw [w2_v14 g, w2_v12 g, w2_v3, w2_v6, w2_arg3]
  rfl
theorem w7_v32 : (W7 m ρ c (Proc.devRef .tc main_v32) : FVec Ideal S1024x128 .f32) = truncf (F := Ideal) .bf16 (padT (arg4 m c)) bitsLt_bf16_f32 := by
  show StableHlo.after hostOps1_4 (StableHlo.after hostOps1_3 (StableHlo.after hostOps1_2 (StableHlo.after hostOps1_1
    (StableHlo.after hostOps1 (W2 m ρ c))))) (Proc.devRef .tc main_v32) = _
  after_results
  rw [w2_arg4]
  rfl
theorem w7_v12 : (W7 m ρ c (Proc.devRef .tc main_v12) : FVec Ideal S10000x1 .f32) = scol g (arg1 m c) := by
  show StableHlo.after hostOps1_4 (StableHlo.after hostOps1_3 (StableHlo.after hostOps1_2 (StableHlo.after hostOps1_1
    (StableHlo.after hostOps1 (W2 m ρ c))))) (Proc.devRef .tc main_v12) = _
  after_results
  exact w2_v12 g m ρ c
theorem w7_v3 : (W7 m ρ c (Proc.devRef .tc main_v3) : IVec S170000 32) = srcT (arg1 m c) := by
  show StableHlo.after hostOps1_4 (StableHlo.after hostOps1_3 (StableHlo.after hostOps1_2 (StableHlo.after hostOps1_1
    (StableHlo.after hostOps1 (W2 m ρ c))))) (Proc.devRef .tc main_v3) = _
  after_results
  exact w2_v3 m ρ c
theorem w7_v6 : (W7 m ρ c (Proc.devRef .tc main_v6) : IVec S170000 32) = dstT (arg1 m c) := by
  show StableHlo.after hostOps1_4 (StableHlo.after hostOps1_3 (StableHlo.after hostOps1_2 (StableHlo.after hostOps1_1
    (StableHlo.after hostOps1 (W2 m ρ c))))) (Proc.devRef .tc main_v6) = _
  after_results
  exact w2_v6 m ρ c
theorem w7_arg5 : (W7 m ρ c (Proc.devRef .tc main_arg5) : FVec Ideal S6 .f32) = (arg5 m c) := by
  show StableHlo.after hostOps1_4 (StableHlo.after hostOps1_3 (StableHlo.after hostOps1_2 (StableHlo.after hostOps1_1
    (StableHlo.after hostOps1 (W2 m ρ c))))) (Proc.devRef .tc main_arg5) = _
  after_results
  exact w2_arg5 m ρ c

/-! ### After the second kernel -/

theorem w8_v33 : (W8 m ρ c (Proc.devRef .tc main_v33) : FVec Ideal S10000x128 .f32)
    = Blocks.proj1 (reluT (layer1 f1 g (arg0 m c) (arg1 m c) (arg2 m c) (arg3 m c))) (truncf (F := Ideal) .bf16 (padT (arg4 m c)) bitsLt_bf16_f32) (scol g (arg1 m c)) := by
  refine (W8_arr m ρ c 3).trans ((Blocks.final1 (V7 m ρ) c).trans ?_)
  show Blocks.proj1 (W7 m ρ c (Proc.devRef .tc main_v30)) (W7 m ρ c (Proc.devRef .tc main_v32)) (W7 m ρ c (Proc.devRef .tc main_v12)) = _
  rw [w7_v30 f1 g, w7_v32, w7_v12 g]
theorem w8_v12 : (W8 m ρ c (Proc.devRef .tc main_v12) : FVec Ideal S10000x1 .f32) = scol g (arg1 m c) :=
  ((W8_arr m ρ c 2).trans (((dat1 (V7 m ρ) c).arrAt_in 2 rfl _).trans (A_eq1 (V7 m ρ) c 2))).trans (w7_v12 g m ρ c)
theorem w8_v3 : (W8 m ρ c (Proc.devRef .tc main_v3) : IVec S170000 32) = srcT (arg1 m c) :=
  (W8_of_ne m ρ c main_v3 (by decide)).trans (w7_v3 m ρ c)
theorem w8_v6 : (W8 m ρ c (Proc.devRef .tc main_v6) : IVec S170000 32) = dstT (arg1 m c) :=
  (W8_of_ne m ρ c main_v6 (by decide)).trans (w7_v6 m ρ c)
theorem w8_arg5 : (W8 m ρ c (Proc.devRef .tc main_arg5) : FVec Ideal S6 .f32) = (arg5 m c) :=
  (W8_of_ne m ρ c main_arg5 (by decide)).trans (w7_arg5 m ρ c)

/-! ### At the return -/

set_option maxRecDepth 131072 in
set_option maxHeartbeats 4000000 in
/-- THE RESULT BUFFER at the return is `out` of the six argument arrays as launched. -/
theorem w10_v50 : (W10 m ρ c (Proc.devRef .tc main_v50) : FVec Ideal S10000x6 .f32) = out f1 f2 g (arg0 m c) (arg1 m c) (arg2 m c) (arg3 m c) (arg4 m c) (arg5 m c) := by
  show StableHlo.after hostOps2_1 (StableHlo.after hostOps2 (W8 m ρ c)) (Proc.devRef .tc main_v50) = _
  after_results
  rw [w8_v33 f1 g, w8_v12 g, w8_v3, w8_v6, w8_arg5]
  rfl

end Cert.KernelIdeal.KValue

end
-- ==== Proof.RefValue.lean ====
/-
  The idealized reference's result as one term of its six argument arrays.

  The reference's run (RefRunP.lean) ends with its result buffer at the composed term of its 117 host operations. That
  term is
      log_softmax ( layer₂ ( relu ( layer₁ x ) ) ),
  each layer in the EDGE-SCALED arrangement (GcnLayer.edgeScaled): the features are projected by a host matrix product,
  the projected rows are gathered by source node, each gathered row is multiplied by its edge's norm
  s[src e] · s[dst e], and the scaled rows are summed by destination node before the bias is added. The reference computes
  the degrees and the factors s once per layer; both computations are the same term of the edge list.
-/
import proofs.«172561_j61083024884001_2_alg».proof.Proof.RefRunP
import Idealize.ShloMosaic.PureOps.Ideal.Laws
import proofs.«172561_j61083024884001_2_alg».proof.Proof.LibGcnLayer
import proofs.«172561_j61083024884001_2_alg».proof.Proof.LibGcnIndex

set_option maxRecDepth 65536

noncomputable section

namespace Cert.ReferenceIdeal.RValue

open Cert.ReferenceIdeal Cert.ReferenceIdeal.Facts₀ Cert.ReferenceIdeal.Facts
open Idealize.ShloMosaic Idealize.ShloMosaic.TcCoe Idealize.SL.Sem

section Terms

variable (f1 : GcnLayer.Extents 10000 1024 170000) (f2 : GcnLayer.Extents 10000 6 170000) (g : GcnIndex.Extents 10000 170000)

/-- The edges' source nodes, the self loops' appended. -/
def srcT (a1 : IVec S2x160000 32) : IVec S170000 32 :=
  concatenate S170000 0 [⟨S160000, shapeCast _ (extractStridedSlice S1x160000 ![0, 0] a1 slices_S2x160000_S1x160000_0_0) shapeCasts_S1x160000_S160000⟩,
    ⟨S10000, iotaInDim S10000 32 0⟩] concatenates_S160000_S10000_S170000_d0

/-- The edges' destination nodes, the self loops' appended. -/
def dstT (a1 : IVec S2x160000 32) : IVec S170000 32 :=
  concatenate S170000 0 [⟨S160000, shapeCast _ (extractStridedSlice S1x160000 ![1, 0] a1 slices_S2x160000_S1x160000_1_0) shapeCasts_S1x160000_S160000⟩,
    ⟨S10000, iotaInDim S10000 32 0⟩] concatenates_S160000_S10000_S170000_d0

/-- The index column the gathers of sources read: the sources, negative words wrapped. -/
def idxS (a1 : IVec S2x160000 32) : IVec S170000x1 32 := GcnIndex.col g (GcnIndex.wrap g 10000#32 (srcT a1))
/-- The index column the segment sums read: the raw destinations. -/
def idxD (a1 : IVec S2x160000 32) : IVec S170000x1 32 := GcnIndex.col g (dstT a1)
/-- The index column the destination's factor is gathered by: the destinations, negative words wrapped. -/
def idxND (a1 : IVec S2x160000 32) : IVec S170000x1 32 := GcnIndex.col g (GcnIndex.wrap g 10000#32 (dstT a1))
/-- The nodes' factors. -/
def sv (a1 : IVec S2x160000 32) : FVec Ideal S10000 .f32 := GcnIndex.invSqrtDeg g (dstT a1)

/-- Layer 1, edge-scaled, before the relu. -/
def layer1 (a0 : FVec Ideal S10000x3703 .f32) (a1 : IVec S2x160000 32) (a2 : FVec Ideal S3703x1024 .f32) (a3 : FVec Ideal S1024 .f32) :
    FVec Ideal S10000x1024 .f32 :=
  GcnLayer.edgeScaled f1 (Host.dotGeneral (F := Ideal) dot_S10000x3703_S3703x1024_S10000x1024_1_0_0_1_n_n none a0 a2)
    (sv g a1) (idxS g a1) (idxD g a1) (idxND g a1) a3

/-- relu: the maximum with the zero matrix. -/
def reluT (y : FVec Ideal S10000x1024 .f32) : FVec Ideal S10000x1024 .f32 :=
  maximumf (F := Ideal) y (broadcastInDim S10000x1024 ![] bcast_S_S10000x1024 (constant (F := Ideal) S_ .f32 0x00000000#32))

/-- Layer 2, edge-scaled. -/
def layer2 (h1 : FVec Ideal S10000x1024 .f32) (a1 : IVec S2x160000 32) (a4 : FVec Ideal S1024x6 .f32) (a5 : FVec Ideal S6 .f32) :
    FVec Ideal S10000x6 .f32 :=
  GcnLayer.edgeScaled f2 (Host.dotGeneral (F := Ideal) dot_S10000x1024_S1024x6_S10000x6_1_0_0_1_n_n none h1 a4)
    (sv g a1) (idxS g a1) (idxD g a1) (idxND g a1) a5

/-- The row maxima of the logits, from −∞. -/
def rowMax (y : FVec Ideal S10000x6 .f32) : FVec Ideal S10000 .f32 :=
  maximumf (F := Ideal) (broadcastInDim S10000 ![] bcast_S_S10000 (constant (F := Ideal) S_ .f32 0xFF800000#32))
    (Host.reduce FloatOps.maximumf y (constant (F := Ideal) S_ .f32 0xFF800000#32) reducesTo_S10000x6_S10000_d1 h_S_)

/-- The logits less their row maxima. -/
def shifted (y : FVec Ideal S10000x6 .f32) : FVec Ideal S10000x6 .f32 :=
  subf (F := Ideal) y (broadcastInDim S10000x6 ![0, 1] bcast_S10000x1_S10000x6_0_1 (broadcastInDim S10000x1 ![0] bcast_S10000_S10000x1_0 (rowMax y)))

/-- log_softmax along the 6 classes. -/
def logSoftmax (y : FVec Ideal S10000x6 .f32) : FVec Ideal S10000x6 .f32 :=
  subf (F := Ideal) (shifted y) (broadcastInDim S10000x6 ![0, 1] bcast_S10000x1_S10000x6_0_1
    (Host.log (F := Ideal) (broadcastInDim S10000x1 ![0] bcast_S10000_S10000x1_0
      (Host.reduceAdd (F := Ideal) (Host.exp (F := Ideal) (shifted y)) (constant (F := Ideal) S_ .f32 0x00000000#32) reducesTo_S10000x6_S10000_d1 h_S_))))

/-- THE REFERENCE'S RESULT as one term of the six arguments. -/
def out (a0 : FVec Ideal S10000x3703 .f32) (a1 : IVec S2x160000 32) (a2 : FVec Ideal S3703x1024 .f32) (a3 : FVec Ideal S1024 .f32)
    (a4 : FVec Ideal S1024x6 .f32) (a5 : FVec Ideal S6 .f32) : FVec Ideal S10000x6 .f32 :=
  logSoftmax (layer2 f2 g (reluT (layer1 f1 g a0 a1 a2 a3)) a1 a4 a5)

end Terms

variable (f1 : GcnLayer.Extents 10000 1024 170000) (f2 : GcnLayer.Extents 10000 6 170000) (g : GcnIndex.Extents 10000 170000)
variable (m : (ℓ : Loc nD τ sig) → Buf (Elt Ideal) ℓ) (c : Dev nD)

/-- The six argument arrays as launched. -/
abbrev arg0 : FVec Ideal S10000x3703 .f32 := m ((c.tc : Thread nD τ).loc main_arg0)
abbrev arg1 : IVec S2x160000 32 := m ((c.tc : Thread nD τ).loc main_arg1)
abbrev arg2 : FVec Ideal S3703x1024 .f32 := m ((c.tc : Thread nD τ).loc main_arg2)
abbrev arg3 : FVec Ideal S1024 .f32 := m ((c.tc : Thread nD τ).loc main_arg3)
abbrev arg4 : FVec Ideal S1024x6 .f32 := m ((c.tc : Thread nD τ).loc main_arg4)
abbrev arg5 : FVec Ideal S6 .f32 := m ((c.tc : Thread nD τ).loc main_arg5)

set_option maxHeartbeats 4000000 in
/-- The run's composed term IS `out` of the argument arrays: the two spell the same operations. -/
theorem res_eq : (ValueP.res_main_v82 (F := Ideal) m c : FVec Ideal S10000x6 .f32)
    = out f1 f2 g (arg0 m c) (arg1 m c) (arg2 m c) (arg3 m c) (arg4 m c) (arg5 m c) := by
  unfold ValueP.res_main_v82
  rfl

end Cert.ReferenceIdeal.RValue

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.Bridge.lean ====
/-
  The kernel's result term and the reference's are one function of the six argument arrays.

  Layer by layer. The kernel's projection kernels leave the projected features with row i multiplied by node i's factor:
  entry (i, j) of the first kernel's output array is (Σ_k x[i, k] · W1[k, j]) · s[i], which is the reference's host
  product x·W1 at (i, j) times s[i] (the kernel's narrower-format copy of W1 is W1 itself at exact arithmetic). For the
  second kernel the weight has 122 zero columns appended and columns 0 … 5 of the output are kept: a kept column j < 6
  reads the padded weight inside the original columns, where it is W2, so the kept entry (i, j) is the reference's host
  product relu(layer₁)·W2 at (i, j) times s[i]. With these two facts the node-scaled and the edge-scaled arrangements
  of each layer agree (GcnLayer.nodeScaled_eq_edgeScaled; the index and degree hypotheses by GcnIndex), the relu between
  the layers and the log-softmax after them are the same operations on both sides, and the graph's index columns and
  factors are the same terms of the edge list in both programs.
-/
import proofs.«172561_j61083024884001_2_alg».proof.Proof.KernelValue
import proofs.«172561_j61083024884001_2_alg».proof.Proof.RefValue
import proofs.«172561_j61083024884001_2_alg».proof.Proof.LibMatIdx
import Idealize.ShloMosaic.Lib.KernelVsHost

set_option maxRecDepth 65536

noncomputable section

namespace Cert.Bridge

open Idealize.ShloMosaic Idealize.ShloMosaic.ValueIdx
open Cert.KernelIdeal (S10000x3703 S2x160000 S3703x1024 S1024 S1024x6 S6 S10000x1024 S10000x6 S10000x128 S1024x128 S10000x1 S10000 S170000 S170000x1)

variable (f1 : GcnLayer.Extents 10000 1024 170000) (f2 : GcnLayer.Extents 10000 6 170000) (g : GcnIndex.Extents 10000 170000)
variable (a0 : FVec Ideal S10000x3703 .f32) (a1 : IVec S2x160000 32) (a2 : FVec Ideal S3703x1024 .f32) (a3 : FVec Ideal S1024 .f32)
  (a4 : FVec Ideal S1024x6 .f32) (a5 : FVec Ideal S6 .f32)

/-! ## The graph's terms are the same in both programs -/

theorem dstT_eq : Cert.ReferenceIdeal.RValue.dstT a1 = Cert.KernelIdeal.KValue.dstT a1 := rfl
theorem idxS_eq : Cert.ReferenceIdeal.RValue.idxS g a1 = Cert.KernelIdeal.KValue.idxS g a1 := rfl
theorem idxD_eq : Cert.ReferenceIdeal.RValue.idxD g a1 = Cert.KernelIdeal.KValue.idxD g a1 := rfl
theorem sv_eq : Cert.ReferenceIdeal.RValue.sv g a1 = Cert.KernelIdeal.KValue.sv g a1 := rfl

/-! ## The prescaled features -/

/-- The first kernel's output array is the host product x·W1 with row i times s[i]. -/
theorem prescaled1 (i : Fin 10000) (j : Fin 1024) :
    Cert.KernelIdeal.Blocks.proj0 a0 (truncf (F := Ideal) .bf16 a2 Cert.KernelIdeal.Facts₀.bitsLt_bf16_f32) (Cert.KernelIdeal.KValue.scol g a1) (ix2 (n0 := 10000) (n1 := 1024) i j)
      = Host.dotGeneral (F := Ideal) Cert.ReferenceIdeal.dot_S10000x3703_S3703x1024_S10000x1024_1_0_0_1_n_n none a0 a2 (ix2 (n0 := 10000) (n1 := 1024) i j)
        * Cert.KernelIdeal.KValue.sv g a1 (ix1 i) := by
  refine Eq.trans ?_ (congrArg (· * Cert.KernelIdeal.KValue.sv g a1 (ix1 i))
    (LibMatIdx.dot2_apply Cert.ReferenceIdeal.dot_S10000x3703_S3703x1024_S10000x1024_1_0_0_1_n_n rfl rfl
      (fun j k => by
        unfold DotDims.lhsIdx
        rw [dif_neg (show ¬(0 : Fin Cert.ReferenceIdeal.S10000x3703.rank) ∈ Cert.ReferenceIdeal.dot_S10000x3703_S3703x1024_S10000x1024_1_0_0_1_n_n.lhsBatch by decide),
          dif_pos (show (0 : Fin Cert.ReferenceIdeal.S10000x3703.rank) ∈ Cert.ReferenceIdeal.dot_S10000x3703_S3703x1024_S10000x1024_1_0_0_1_n_n.lhsNonContracting by decide)]
        rfl)
      (fun j k => Cert.ReferenceIdeal.dot_S10000x3703_S3703x1024_S10000x1024_1_0_0_1_n_n.lhsIdx_val_of_single rfl j k)
      (fun j k => Cert.ReferenceIdeal.dot_S10000x3703_S3703x1024_S10000x1024_1_0_0_1_n_n.rhsIdx_val_of_single rfl j k)
      (fun j k => by
        unfold DotDims.rhsIdx
        rw [dif_neg (show ¬(1 : Fin Cert.ReferenceIdeal.S3703x1024.rank) ∈ Cert.ReferenceIdeal.dot_S10000x3703_S3703x1024_S10000x1024_1_0_0_1_n_n.rhsBatch by decide),
          dif_pos (show (1 : Fin Cert.ReferenceIdeal.S3703x1024.rank) ∈ Cert.ReferenceIdeal.dot_S10000x3703_S3703x1024_S10000x1024_1_0_0_1_n_n.rhsNonContracting by decide)]
        rfl)
      none a0 a2 (ix2 (n0 := 10000) (n1 := 1024) i j)).symm)
  unfold Cert.KernelIdeal.Blocks.proj0 Cert.KernelIdeal.KValue.scol
  rw [GcnLayer.col_of_vec_apply]
  rfl

/-- The second kernel's kept columns are the host product h·W2 with row i times s[i]. -/
theorem prescaled2 (h1 : FVec Ideal S10000x1024 .f32) (i : Fin 10000) (j : Fin 6) :
    Cert.KernelIdeal.KValue.hs2 g h1 a1 a4 (ix2 (n0 := 10000) (n1 := 6) i j)
      = Host.dotGeneral (F := Ideal) Cert.ReferenceIdeal.dot_S10000x1024_S1024x6_S10000x6_1_0_0_1_n_n none h1 a4 (ix2 (n0 := 10000) (n1 := 6) i j)
        * Cert.KernelIdeal.KValue.sv g a1 (ix1 i) := by
  have hj : j.val < 128 := by have := j.isLt; omega
  refine Eq.trans ?_ (congrArg (· * Cert.KernelIdeal.KValue.sv g a1 (ix1 i))
    (LibMatIdx.dot2_apply Cert.ReferenceIdeal.dot_S10000x1024_S1024x6_S10000x6_1_0_0_1_n_n rfl rfl
      (fun j k => by
        unfold DotDims.lhsIdx
        rw [dif_neg (show ¬(0 : Fin Cert.ReferenceIdeal.S10000x1024.rank) ∈ Cert.ReferenceIdeal.dot_S10000x1024_S1024x6_S10000x6_1_0_0_1_n_n.lhsBatch by decide),
          dif_pos (show (0 : Fin Cert.ReferenceIdeal.S10000x1024.rank) ∈ Cert.ReferenceIdeal.dot_S10000x1024_S1024x6_S10000x6_1_0_0_1_n_n.lhsNonContracting by decide)]
        rfl)
      (fun j k => Cert.ReferenceIdeal.dot_S10000x1024_S1024x6_S10000x6_1_0_0_1_n_n.lhsIdx_val_of_single rfl j k)
      (fun j k => Cert.ReferenceIdeal.dot_S10000x1024_S1024x6_S10000x6_1_0_0_1_n_n.rhsIdx_val_of_single rfl j k)
      (fun j k => by
        unfold DotDims.rhsIdx
        rw [dif_neg (show ¬(1 : Fin Cert.ReferenceIdeal.S1024x6.rank) ∈ Cert.ReferenceIdeal.dot_S10000x1024_S1024x6_S10000x6_1_0_0_1_n_n.rhsBatch by decide),
          dif_pos (show (1 : Fin Cert.ReferenceIdeal.S1024x6.rank) ∈ Cert.ReferenceIdeal.dot_S10000x1024_S1024x6_S10000x6_1_0_0_1_n_n.rhsNonContracting by decide)]
        rfl)
      none h1 a4 (ix2 (n0 := 10000) (n1 := 6) i j)).symm)
  have hsl : Cert.KernelIdeal.KValue.hs2 g h1 a1 a4 (ix2 (n0 := 10000) (n1 := 6) i j)
      = Cert.KernelIdeal.Blocks.proj1 h1 (truncf (F := Ideal) .bf16 (Cert.KernelIdeal.KValue.padT a4) Cert.KernelIdeal.Facts₀.bitsLt_bf16_f32) (Cert.KernelIdeal.KValue.scol g a1)
          (ix2 (n0 := 10000) (n1 := 128) i ⟨j.val, hj⟩) := by
    unfold Cert.KernelIdeal.KValue.hs2
    exact extractStridedSlice_apply _ _ _ (ix2 (n0 := 10000) (n1 := 6) i j) (ix2 (n0 := 10000) (n1 := 128) i ⟨j.val, hj⟩) (fun a => by
      match a with
      | ⟨0, _⟩ => show i.val = 0 + i.val; omega
      | ⟨1, _⟩ => show j.val = 0 + j.val; omega)
  have hpad : ∀ k : Fin 1024, Cert.KernelIdeal.KValue.padT a4 (ix2 (n0 := 1024) (n1 := 128) k ⟨j.val, hj⟩) = a4 (ix2 (n0 := 1024) (n1 := 6) k j) := fun k => by
    unfold Cert.KernelIdeal.KValue.padT
    exact pad_apply_of_inside _ _ _ a4 _ _ _ (ix2 (n0 := 1024) (n1 := 128) k ⟨j.val, hj⟩) (ix2 (n0 := 1024) (n1 := 6) k j) (fun a => by
      match a with
      | ⟨0, _⟩ => show k.val = 0 + k.val * (0 + 1); omega
      | ⟨1, _⟩ => show j.val = 0 + j.val * (0 + 1); omega)
  rw [hsl]
  unfold Cert.KernelIdeal.Blocks.proj1 Cert.KernelIdeal.KValue.scol
  rw [GcnLayer.col_of_vec_apply]
  have hsum : (∑ k : Fin 1024, h1 (ix2 (n0 := 10000) (n1 := 1024) i k)
        * truncf (F := Ideal) .bf16 (Cert.KernelIdeal.KValue.padT a4) Cert.KernelIdeal.Facts₀.bitsLt_bf16_f32 (ix2 (n0 := 1024) (n1 := 128) k ⟨j.val, hj⟩))
      = ∑ k : Fin 1024, h1 (ix2 (n0 := 10000) (n1 := 1024) i k) * a4 (ix2 (n0 := 1024) (n1 := 6) k j) :=
    Finset.sum_congr rfl fun k _ => congrArg (h1 (ix2 (n0 := 10000) (n1 := 1024) i k) * ·) (hpad k)
  exact congrArg (· * Cert.KernelIdeal.KValue.sv g a1 (ix1 i)) hsum

/-! ## The layers -/

theorem layer1_eq : Cert.KernelIdeal.KValue.layer1 f1 g a0 a1 a2 a3 = Cert.ReferenceIdeal.RValue.layer1 f1 g a0 a1 a2 a3 := by
  unfold Cert.KernelIdeal.KValue.layer1 Cert.ReferenceIdeal.RValue.layer1
  exact GcnLayer.nodeScaled_eq_edgeScaled f1 _ _ (Cert.KernelIdeal.KValue.sv g a1) (Cert.KernelIdeal.KValue.idxS g a1) (Cert.KernelIdeal.KValue.idxD g a1)
    (GcnIndex.col g (GcnIndex.wrap g 10000#32 (Cert.KernelIdeal.KValue.dstT a1))) a3
    (prescaled1 g a0 a1 a2)
    (fun e i h => GcnIndex.wrap_clamp g 10000#32 (Cert.KernelIdeal.KValue.dstT a1) e i h)
    (fun i hex => GcnIndex.invSqrtDeg_real g (Cert.KernelIdeal.KValue.dstT a1) i hex)

theorem layer2_eq (h1 : FVec Ideal S10000x1024 .f32) :
    Cert.KernelIdeal.KValue.layer2 f2 g h1 a1 a4 a5 = Cert.ReferenceIdeal.RValue.layer2 f2 g h1 a1 a4 a5 := by
  unfold Cert.KernelIdeal.KValue.layer2 Cert.ReferenceIdeal.RValue.layer2
  exact GcnLayer.nodeScaled_eq_edgeScaled f2 _ _ (Cert.KernelIdeal.KValue.sv g a1) (Cert.KernelIdeal.KValue.idxS g a1) (Cert.KernelIdeal.KValue.idxD g a1)
    (GcnIndex.col g (GcnIndex.wrap g 10000#32 (Cert.KernelIdeal.KValue.dstT a1))) a5
    (prescaled2 g a1 a4 h1)
    (fun e i h => GcnIndex.wrap_clamp g 10000#32 (Cert.KernelIdeal.KValue.dstT a1) e i h)
    (fun i hex => GcnIndex.invSqrtDeg_real g (Cert.KernelIdeal.KValue.dstT a1) i hex)

/-! ## The results -/

/-- THE TWO RESULT TERMS ARE ONE FUNCTION of the six argument arrays. -/
theorem out_eq : Cert.KernelIdeal.KValue.out f1 f2 g a0 a1 a2 a3 a4 a5 = Cert.ReferenceIdeal.RValue.out f1 f2 g a0 a1 a2 a3 a4 a5 := by
  unfold Cert.KernelIdeal.KValue.out Cert.ReferenceIdeal.RValue.out
  rw [layer1_eq f1 g a0 a1 a2 a3, layer2_eq f2 g a1 a4 a5]
  rfl

end Cert.Bridge

end
-- ==== Proof.lean ====
/-
  Two graph-convolution layers with symmetric degree normalisation, relu between them and log-softmax after, over a
  graph of 10000 nodes given by 160000 edges (self loops appended): a Pallas implementation against its jnp reference,
  equal as extended reals.

  The reference computes each layer edge by edge: project the features by a host matrix product, gather each edge's
  source row, multiply it by the edge's norm s[src e] · s[dst e] (s = the reciprocal square root of the in-degree), and
  sum the rows by destination. The kernel factors the norm over the nodes: its projection kernels (a grid of 25 blocks
  of 400 rows, the weight cast to a narrower float format and resident) multiply row i of the product by s[i] before it
  is stored, the host sums the gathered rows with no per-edge factor, and row i of the sum is multiplied by s[i]
  afterwards. At exact arithmetic the narrower format is the identity, and the two arrangements agree because every
  edge summed into row i has destination i: the destination's factor is the common factor s[i] of the whole sum, a
  non-negative real number (the degree of a node that receives an edge is a count ≥ 1), and a non-negative real factor
  distributes over any finite sum of extended reals. A node that receives no edge has two empty sums. No finiteness
  of the inputs is used: the precondition is never opened.

  The modules: LibGcnLaw (the law), LibGcnLayer (the two arrangements of a layer over any extents, and their equality),
  LibGcnIndex (the index columns and the degrees), KernelBlocks (each projection kernel's output array as one function),
  KernelRun (the kernel program's run with its result named), KernelValue (that result as a term of the arguments),
  RefRunP (the reference's run), RefValue (its result as a term), Bridge (the two terms are one function).
-/
import proofs.«172561_j61083024884001_2_alg».proof.Defs
import proofs.«172561_j61083024884001_2_alg».proof.Proof.Gen.Kernel
import proofs.«172561_j61083024884001_2_alg».proof.Proof.Gen.Kernel.Skeleton
import proofs.«172561_j61083024884001_2_alg».proof.Proof.Gen.Kernel.Launch
import proofs.«172561_j61083024884001_2_alg».proof.Proof.Gen.Kernel.Points
import proofs.«172561_j61083024884001_2_alg».proof.Proof.Gen.Kernel.Frame
import proofs.«172561_j61083024884001_2_alg».proof.Proof.Gen.KernelIdeal
import proofs.«172561_j61083024884001_2_alg».proof.Proof.Gen.KernelIdeal.Skeleton
import proofs.«172561_j61083024884001_2_alg».proof.Proof.Gen.KernelIdeal.Launch
import proofs.«172561_j61083024884001_2_alg».proof.Proof.Gen.KernelIdeal.Points
import proofs.«172561_j61083024884001_2_alg».proof.Proof.Gen.KernelIdeal.Frame
import proofs.«172561_j61083024884001_2_alg».proof.Proof.Gen.ReferenceIdeal
import proofs.«172561_j61083024884001_2_alg».proof.Proof.Gen.Pre_finite_inputs
import proofs.«172561_j61083024884001_2_alg».proof.Proof.KernelRun
import proofs.«172561_j61083024884001_2_alg».proof.Proof.KernelValue
import proofs.«172561_j61083024884001_2_alg».proof.Proof.RefRunP
import proofs.«172561_j61083024884001_2_alg».proof.Proof.RefValue
import proofs.«172561_j61083024884001_2_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem

/-! ## The extents' shape relations, from the two programs' stated facts -/

/-- Layer 1: 10000 nodes, 1024 features, 170000 edges. -/
theorem ext1 : GcnLayer.Extents 10000 1024 170000 where
  hN := by decide
  wfG := Cert.KernelIdeal.Facts₀.gather_S10000x1024_S170000x1_S170000x1024_1_0_n_n_0_1_11024_wf
  wfS := Cert.KernelIdeal.Facts₀.scatter_S10000x1024_S170000x1_S170000x1024_1_0_0_1_wf
  wfV := Cert.ReferenceIdeal.Facts₀.gather_S10000_S170000x1_S170000_n_0_n_n_0_1_1_wf
  b0 := Cert.KernelIdeal.Facts₀.bcast_S_S10000x1024
  bNcol := Cert.KernelIdeal.Facts₀.bcast_S10000_S10000x1_0
  bNmat := Cert.KernelIdeal.Facts₀.bcast_S10000x1_S10000x1024_0_1
  bEcol := Cert.KernelIdeal.Facts₀.bcast_S170000_S170000x1_0
  bEmat := Cert.ReferenceIdeal.Facts₀.bcast_S170000x1_S170000x1024_0_1
  bDrow := Cert.KernelIdeal.Facts₀.bcast_S1024_S1x1024_1
  bDmat := Cert.KernelIdeal.Facts₀.bcast_S1x1024_S10000x1024_0_1

/-- Layer 2: 10000 nodes, 6 classes, 170000 edges. -/
theorem ext2 : GcnLayer.Extents 10000 6 170000 where
  hN := by decide
  wfG := Cert.KernelIdeal.Facts₀.gather_S10000x6_S170000x1_S170000x6_1_0_n_n_0_1_16_wf
  wfS := Cert.KernelIdeal.Facts₀.scatter_S10000x6_S170000x1_S170000x6_1_0_0_1_wf
  wfV := Cert.ReferenceIdeal.Facts₀.gather_S10000_S170000x1_S170000_n_0_n_n_0_1_1_wf
  b0 := Cert.KernelIdeal.Facts₀.bcast_S_S10000x6
  bNcol := Cert.KernelIdeal.Facts₀.bcast_S10000_S10000x1_0
  bNmat := Cert.KernelIdeal.Facts₀.bcast_S10000x1_S10000x6_0_1
  bEcol := Cert.KernelIdeal.Facts₀.bcast_S170000_S170000x1_0
  bEmat := Cert.ReferenceIdeal.Facts₀.bcast_S170000x1_S170000x6_0_1
  bDrow := Cert.KernelIdeal.Facts₀.bcast_S6_S1x6_1
  bDmat := Cert.KernelIdeal.Facts₀.bcast_S1x6_S10000x6_0_1

/-- The graph: 10000 nodes, 170000 edges. -/
theorem extG : GcnIndex.Extents 10000 170000 where
  hN := by decide
  bE0 := Cert.KernelIdeal.Facts₀.bcast_S_S170000
  bN0 := Cert.KernelIdeal.Facts₀.bcast_S_S10000
  bEcol := Cert.KernelIdeal.Facts₀.bcast_S170000_S170000x1_0
  wfSV := Cert.KernelIdeal.Facts₀.scatter_S10000_S170000x1_S170000_n_0_0_1_wf

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel: there is nothing to preserve. -/
theorem preserves : Cert.preserves_Kernel_KernelIdeal := trivial

/-- At exact arithmetic the kernel's result buffer ends at its term of the arguments (KernelValue), the reference's at
    its own (RefValue), and on arguments that agree the two terms are one function (Bridge). -/
theorem algebraic : Cert.algebraic_KernelIdeal_ReferenceIdeal := by
  intro m ρ m' ρ' _ hagree
  refine ⟨fun c => Cert.KernelIdeal.KValue.out ext1 ext2 extG (Cert.KernelIdeal.KValue.arg0 m c) (Cert.KernelIdeal.KValue.arg1 m c)
      (Cert.KernelIdeal.KValue.arg2 m c) (Cert.KernelIdeal.KValue.arg3 m c) (Cert.KernelIdeal.KValue.arg4 m c)
      (Cert.KernelIdeal.KValue.arg5 m c), ?_, ?_⟩
  · exact (θ_run Cert.KernelIdeal.defs _ _).mono
      (fun r h c => ⟨(h c).1.trans (Cert.KernelIdeal.KValue.w10_v50 ext1 ext2 extG m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.RValue.res_eq ext1 ext2 extG m' c).trans ?_
    obtain ⟨h0, h1, h2, h3, h4, h5⟩ := hagree c
    show Cert.ReferenceIdeal.RValue.out ext1 ext2 extG
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [h0, h1, h2, h3, h4, h5]
    exact (Cert.Bridge.out_eq ext1 ext2 extG _ _ _ _ _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
